-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3300000 : Shape := ⟨2, ![2, 3300000]⟩
abbrev S3300000 : Shape := ⟨1, ![3300000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3300000 : S_.BroadcastsInDim S3300000 (![] : Fin 0 → Fin S3300000.rank)
  reducesTo_S3300000_S_d0 : S3300000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S2x3300000 32) (main_arg2 : FVec F S3300000 .f32) (main_arg3 : FVec F S512x16 .f32) (main_arg4 : FVec F S16 .f32) (main_arg5 : FVec F S16x40 .f32) (main_arg6 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3300000 .f32 := Host.absf main_arg2
  let main_cst_0 : FVec F S_ .f32 := constant S_ .f32 0x7F800000#32
  let main_v5 : FVec F S3300000 .f32 := broadcastInDim S3300000 ![] bcast_S_S3300000 main_cst_0
  let main_v6 : IVec S3300000 1 := cmpf .olt main_v4 main_v5
  let main_c_1 : IVec S_ 1 := constantI S_ 1 1#1
  let main_v7 : IVec S_ 1 := (fun x v => Host.reduce IntOp.andi x v reducesTo_S3300000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3300000 : Shape := ⟨2, ![2, 3300000]⟩
abbrev S3300000 : Shape := ⟨1, ![3300000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3300000 : Shape := ⟨2, ![1, 3300000]⟩
abbrev S_ : Shape := ⟨0, ![]⟩
abbrev S100000 : Shape := ⟨1, ![100000]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S10000x16 : Shape := ⟨2, ![10000, 16]⟩
abbrev S1x16 : Shape := ⟨2, ![1, 16]⟩
abbrev S100000x40 : Shape := ⟨2, ![100000, 40]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 79
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3300000, .i32⟩
  | .hbm, ⟨2, _⟩ => ⟨S3300000, .f32⟩
  | .hbm, ⟨3, _⟩ => ⟨S512x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S1x3300000, .i32⟩
  | .hbm, ⟨8, _⟩ => ⟨S3300000, .i32⟩
  | .hbm, ⟨9, _⟩ => ⟨S1x3300000, .i32⟩
  | .hbm, ⟨10, _⟩ => ⟨S3300000, .i32⟩
  | .hbm, ⟨11, _⟩ => ⟨S_, .f32⟩
  | .hbm, ⟨12, _⟩ => ⟨S100000, .f32⟩
  | .hbm, ⟨13, _⟩ => ⟨S3300000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S3300000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S3300000, .f32⟩
  | .hbm, ⟨43, _⟩ => ⟨S100000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x16, .f32⟩
  | .hbm, ⟨53, _⟩ => ⟨S3300000x1, .f32⟩
  | .hbm, ⟨54, _⟩ => ⟨S3300000x16, .f32⟩
  | .hbm, ⟨55, _⟩ => ⟨S3300000x16, .f32⟩
  | .hbm, ⟨56, _⟩ => ⟨S_, .f32⟩
  | .hbm, ⟨57, _⟩ => ⟨S100000x16, .f32⟩
  | .hbm, ⟨58, _⟩ => ⟨S3300000x1, .i32⟩
  | .hbm, ⟨59, _⟩ => ⟨S100000x16, .f32⟩
  | .hbm, ⟨60, _⟩ => ⟨S100000x16, .f32⟩
  | .hbm, ⟨61, _⟩ => ⟨S100000x40, .f32⟩
  | .hbm, ⟨62, _⟩ => ⟨S_, .i32⟩
  | .hbm, ⟨63, _⟩ => ⟨S3300000, .i32⟩
  | .hbm, ⟨64, _⟩ => ⟨S3300000, .i1⟩
  | .hbm, ⟨65, _⟩ => ⟨S_, .i32⟩
  | .hbm, ⟨66, _⟩ => ⟨S3300000, .i32⟩
  | .hbm, ⟨67, _⟩ => ⟨S3300000, .i32⟩
  | .hbm, ⟨68, _⟩ => ⟨S3300000, .i32⟩
  | .hbm, ⟨69, _⟩ => ⟨S3300000x1, .i32⟩
  | .hbm, ⟨70, _⟩ => ⟨S3300000x40, .f32⟩
  | .hbm, ⟨71, _⟩ => ⟨S3300000x1, .f32⟩
  | .hbm, ⟨72, _⟩ => ⟨S3300000x40, .f32⟩
  | .hbm, ⟨73, _⟩ => ⟨S3300000x40, .f32⟩
  | .hbm, ⟨74, _⟩ => ⟨S_, .f32⟩
  | .hbm, ⟨75, _⟩ => ⟨S100000x40, .f32⟩
  | .hbm, ⟨76, _⟩ => ⟨S3300000x1, .i32⟩
  | .hbm, ⟨77, _⟩ => ⟨S100000x40, .f32⟩
  | .hbm, ⟨78, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S10000x40_S10000x40 : S10000x40.ShapeCasts S10000x40
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S40.size a ≤ S40.size a
  hwx3_1 : ∀ i : grid3.Coords, EltTy.bits .f32 = 32 ∨ (Rect.block (s := S40) S40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3300000 : Shape := ⟨2, ![2, 3300000]⟩
abbrev S3300000 : Shape := ⟨1, ![3300000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3300000 : Shape := ⟨2, ![1, 3300000]⟩
abbrev S_ : Shape := ⟨0, ![]⟩
abbrev S100000 : Shape := ⟨1, ![100000]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 133
  | .vmem => 0
  | .smem => 0
  | _ => 0

abbrev hbmTy0_0 (i : Nat) : BufTy := match i % 128 with
  | 0 => ⟨S100000x512, .f32⟩
  | 1 => ⟨S2x3300000, .i32⟩
  | 2 => ⟨S3300000, .f32⟩
  | 3 => ⟨S512x16, .f32⟩
  | 4 => ⟨S16, .f32⟩
  | 5 => ⟨S16x40, .f32⟩
  | 6 => ⟨S40, .f32⟩
  | 7 => ⟨S1x3300000, .i32⟩
  | 8 => ⟨S3300000, .i32⟩
  | 9 => ⟨S1x3300000, .i32⟩
  | 10 => ⟨S3300000, .i32⟩
  | 11 => ⟨S_, .f32⟩
  | 12 => ⟨S100000, .f32⟩
  | 13 => ⟨S3300000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000, .f32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S100000x16, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000x16, .f32⟩
  | 53 => ⟨S3300000x1, .f32⟩
  | 54 => ⟨S3300000x16, .f32⟩
  | 55 => ⟨S3300000x16, .f32⟩
  | 56 => ⟨S_, .f32⟩
  | 57 => ⟨S100000x16, .f32⟩
  | 58 => ⟨S3300000x1, .i32⟩
  | 59 => ⟨S100000x16, .f32⟩
  | 60 => ⟨S1x16, .f32⟩
  | 61 => ⟨S100000x16, .f32⟩
  | 62 => ⟨S100000x16, .f32⟩
  | 63 => ⟨S_, .f32⟩
  | 64 => ⟨S100000x16, .f32⟩
  | 65 => ⟨S100000x16, .f32⟩
  | 66 => ⟨S_, .f32⟩
  | 67 => ⟨S100000, .f32⟩
  | 68 => ⟨S3300000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000, .f32⟩
  | 87 => ⟨S3300000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S3300000, .f32⟩
  | 98 => ⟨S100000x40, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000x40, .f32⟩
  | 108 => ⟨S3300000x1, .f32⟩
  | 109 => ⟨S3300000x40, .f32⟩
  | 110 => ⟨S3300000x40, .f32⟩
  | 111 => ⟨S_, .f32⟩
  | 112 => ⟨S100000x40, .f32⟩
  | 113 => ⟨S3300000x1, .i32⟩
  | 114 => ⟨S100000x40, .f32⟩
  | 115 => ⟨S1x40, .f32⟩
  | 116 => ⟨S100000x40, .f32⟩
  | 117 => ⟨S100000x40, .f32⟩
  | 118 => ⟨S_, .f32⟩
  | 119 => ⟨S100000, .f32⟩
  | 120 => ⟨S_, .f32⟩
  | 121 => ⟨S100000, .f32⟩
  | 122 => ⟨S100000, .f32⟩
  | 123 => ⟨S100000x1, .f32⟩
  | 124 => ⟨S100000x40, .f32⟩
  | 125 => ⟨S100000x40, .f32⟩
  | 126 => ⟨S100000x40, .f32⟩
  | 127 => ⟨S_, .f32⟩
  | _ => ⟨S100000x512, .f32⟩

abbrev hbmTy0_1 (i : Nat) : BufTy := match i % 128 with
  | 0 => ⟨S100000, .f32⟩
  | 1 => ⟨S100000x1, .f32⟩
  | 2 => ⟨S100000x1, .f32⟩
  | 3 => ⟨S100000x40, .f32⟩
  | 4 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call3_cst : Ref sig .tc := ⟨.hbm, 118, rfl⟩
abbrev main_call3_v0 : Ref sig .tc := ⟨.hbm, 119, rfl⟩
abbrev main_call3_cst_0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_cst_1 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_v85 : Ref sig .tc := ⟨.hbm, 132, rfl⟩

abbrev nD : Nat := 1
abbrev τ : Topo := Topo.v7x

variable {F : FTy → Type} [FloatOps F]

class Facts₀ : Prop where
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result kept.

  @main is nine segments: three stretches of host operations (the edge normalisation: degrees by a scatter-add over
  the target column, their inverse square roots where positive, gathered at both ends of every edge), the first
  dense product, the first neighbourhood aggregation, bias and rectifier, the second dense product, the second
  aggregation, and the row-wise log-softmax.  Every weakly fair execution from a memory with zero counters ends,
  without a fault, with every unscoped buffer of core `c` at the last boundary's contents `W9 m ρ c`: in particular
  the result array, and the seven argument arrays, which no segment writes.
-/
import proofs.«140395_j18399639896776_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates without a fault; the result array ends at the last boundary's contents and the
    arguments end as launched. -/
theorem run : θ_run defs (onTc (τ := τ) (main (F := F))) ⟨m, fun _ => 0, ρ⟩ (fun r => ∀ c : Dev nD,
      r.2.mem ((c.tc : Thread nD τ).loc main_v56) = W9 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v56 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ResultRun

end
-- ==== Proof.Spec.lean ====
/-
  The four dense stages of a two-layer graph convolution, each as ONE function of its input arrays on the extended
  reals, entry by entry:

    dense x W        (p, q) = Σ_k x (p, k) · W (k, q)
    biasRelu a b     (p, q) = max (a (p, q) + b (q), 0)
    logSoftmaxBias a b (p, q) = (z (p, q) − M p) − log Σ_u exp (z (p, u) − M p),
                       z (p, u) = a (p, u) + b (u),   M p = max_u z (p, u) (the maximum taken from −∞).

  The zero and −∞ are kept as the float words the programs spell them with; both programs spell the same words, so
  they are never evaluated.  All extents are variables.
-/
import Idealize.ShloMosaic.PureOps.Ideal.Laws
import Idealize.ShloMosaic.Lib.ValueIdx

noncomputable section

namespace Cert.GcnSpec

open Idealize.ShloMosaic Idealize.ShloMosaic.ValueIdx

variable {M K N : ℕ}

/-- A dense product: entry (p, q) is the sum over k of x (p, k) · W (k, q). -/
def dense (x : FVec Ideal ⟨2, ![M, K]⟩ .f32) (W : FVec Ideal ⟨2, ![K, N]⟩ .f32) : FVec Ideal ⟨2, ![M, N]⟩ .f32 :=
  fun i => ∑ k : Fin K, x (ix2 (i 0) k) * W (ix2 k (i 1))

theorem dense_apply (x : FVec Ideal ⟨2, ![M, K]⟩ .f32) (W : FVec Ideal ⟨2, ![K, N]⟩ .f32) (p : Fin M) (q : Fin N) :
    dense x W (ix2 p q) = ∑ k : Fin K, x (ix2 p k) * W (ix2 k q) := rfl

/-- The bias added to every row, then the rectifier: entry (p, q) is max (a (p, q) + b (q), 0). -/
def biasRelu (a : FVec Ideal ⟨2, ![M, N]⟩ .f32) (b : FVec Ideal ⟨1, ![N]⟩ .f32) : FVec Ideal ⟨2, ![M, N]⟩ .f32 :=
  fun i => max (a i + b (ix1 (i 1))) (Ideal.ofBits .f32 0x00000000#32)

theorem biasRelu_apply (a : FVec Ideal ⟨2, ![M, N]⟩ .f32) (b : FVec Ideal ⟨1, ![N]⟩ .f32) (p : Fin M) (q : Fin N) :
    biasRelu a b (ix2 p q) = max (a (ix2 p q) + b (ix1 q)) (Ideal.ofBits .f32 0x00000000#32) := rfl

/-- The biased logits of row p: z (p, u) = a (p, u) + b (u). -/
def logits (a : FVec Ideal ⟨2, ![M, N]⟩ .f32) (b : FVec Ideal ⟨1, ![N]⟩ .f32) (p : Fin M) (u : Fin N) : EReal :=
  a (ix2 p u) + b (ix1 u)

/-- The row maximum of the biased logits, taken from −∞. -/
def rowMax (a : FVec Ideal ⟨2, ![M, N]⟩ .f32) (b : FVec Ideal ⟨1, ![N]⟩ .f32) (p : Fin M) : EReal :=
  (Finset.univ : Finset (Fin N)).fold max (Ideal.ofBits .f32 0xFF800000#32) (logits a b p)

/-- The bias added to every row, then the row-wise log-softmax with the row maximum subtracted first. -/
def logSoftmaxBias (a : FVec Ideal ⟨2, ![M, N]⟩ .f32) (b : FVec Ideal ⟨1, ![N]⟩ .f32) : FVec Ideal ⟨2, ![M, N]⟩ .f32 :=
  fun i => (logits a b (i 0) (i 1) - rowMax a b (i 0))
    - Ideal.log (∑ u : Fin N, Ideal.exp (logits a b (i 0) u - rowMax a b (i 0)))

theorem logSoftmaxBias_apply (a : FVec Ideal ⟨2, ![M, N]⟩ .f32) (b : FVec Ideal ⟨1, ![N]⟩ .f32) (p : Fin M) (q : Fin N) :
    logSoftmaxBias a b (ix2 p q) = (logits a b p q - rowMax a b p)
      - Ideal.log (∑ u : Fin N, Ideal.exp (logits a b p u - rowMax a b p)) := rfl

end Cert.GcnSpec

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Dense1.lean ====
/-
  The first dense product, h₀ = x · W₁, computed by the first Pallas region block by block.

  The grid has 20 points; point t multiplies rows 5000·t … 5000·t + 4999 of the left operand by the whole right operand
  (rounding the operands to a narrower float format first, which is the identity on the extended reals) into a zero
  accumulator and writes the product back as rows 5000·t … 5000·t + 4999 of the output.  Entry (p, q) of a block is
  Σ_k x (5000·t + p, k) · W (k, q): the block is the corresponding rows of the dense product of the whole arrays, and
  the 20 blocks tile the 100000 rows, so the output array ends holding the dense product, whatever the
  arrays held when the region was entered.
-/
import proofs.«140395_j18399639896776_2_alg».proof.Proof.Gen.KernelIdeal.Frame
import proofs.«140395_j18399639896776_2_alg».proof.Proof.Spec
import proofs.«140395_j18399639896776_2_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One entry of a point's product: the sum over the contracted index of the operands' products. -/
theorem pay_apply (x0 : Vec Ideal S5000x512 .f32) (x1 : Vec Ideal S512x16 .f32) (p : Fin 5000) (q : Fin 16) :
    k0_pay1 (F := Ideal) x0 x1 (ix2 p q) = ∑ k : Fin 512, x0 (ix2 p k) * x1 (ix2 k q) := by
  unfold k0_pay1
  exact Cert.LibLayout.matmul_rows_cols_apply dot_S5000x512_S512x16_S5000x16_1_0_0_1_n_n rfl rfl rfl rfl
    (fun j k => by
      unfold DotDims.lhsIdx
      rw [dif_neg (show ¬(0 : Fin 2) ∈ dot_S5000x512_S512x16_S5000x16_1_0_0_1_n_n.lhsBatch by decide),
        dif_pos (show (0 : Fin 2) ∈ dot_S5000x512_S512x16_S5000x16_1_0_0_1_n_n.lhsNonContracting by decide)]
      rfl)
    (fun j k => by
      unfold DotDims.rhsIdx
      rw [dif_neg (show ¬(1 : Fin 2) ∈ dot_S5000x512_S512x16_S5000x16_1_0_0_1_n_n.rhsBatch by decide),
        dif_pos (show (1 : Fin 2) ∈ dot_S5000x512_S512x16_S5000x16_1_0_0_1_n_n.rhsNonContracting by decide)]
      rfl)
    none _ _ p q

/-- If row p of the left block is row P of the whole left operand and the right block is the whole right operand, the
    point's entry (p, q) is entry (P, q) of the dense product. -/
theorem pay_eq_dense (X : FVec Ideal ⟨2, ![100000, 512]⟩ .f32) (W : FVec Ideal ⟨2, ![512, 16]⟩ .f32)
    (x0 : Vec Ideal S5000x512 .f32) (x1 : Vec Ideal S512x16 .f32) (p : Fin 5000) (q : Fin 16) (P : Fin 100000)
    (hx : ∀ k : Fin 512, x0 (ix2 p k) = X (ix2 P k)) (hw : ∀ k : Fin 512, x1 (ix2 k q) = W (ix2 k q)) :
    k0_pay1 (F := Ideal) x0 x1 (ix2 p q) = dense X W (ix2 P q) := by
  rw [pay_apply, dense_apply]
  exact Finset.sum_congr rfl fun k _ => by rw [hx k, hw k]

/-- Where each window's block sits at point t: the left operand's and the output's at row block t, all columns; the
    right operand's is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the dense product of the arrays as the region finds them. -/
theorem flushed_eq (c : Dev nD) (t : Fin cfg0.N) :
    (dat0 V c).flushed 2 t = ((cfg0.win 2).blk t).view.read (Elt Ideal)
      (dense (M := 100000) (K := 512) (N := 16) (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x16) hz]
  obtain ⟨e0, e1, e2, e3, e4, e5⟩ := idx_facts t
  have hN : cfg0.N = 20 := N_0
  have ht : t.val < 20 := hN ▸ t.isLt
  funext j
  obtain ⟨p, q, rfl⟩ : ∃ (p : Fin 5000) (q : Fin 16), j = ix2 p q := ⟨j 0, j 1, eq_ix2 j⟩
  show k0_pay1 (F := Ideal) (iblk0 V c 0 t) (iblk0 V c 1 t) (ix2 p q)
    = dense (M := 100000) (K := 512) (N := 16) (V c main_arg0) (V c main_arg3) (((cfg0.win 2).blk t).view.emb (ix2 p q))
  have hP : t.val * 5000 + p.val < 100000 := by have := p.isLt; omega
  refine (pay_eq_dense (V c main_arg0) (V c main_arg3) (iblk0 V c 0 t) (iblk0 V c 1 t) p q ⟨t.val * 5000 + p.val, hP⟩ ?_ ?_).trans ?_
  · intro k
    show V c main_arg0 (((cfg0.win 0).blk t).view.emb (ix2 p k)) = V c main_arg0 (ix2 ⟨t.val * 5000 + p.val, hP⟩ k)
    refine congrArg (V c main_arg0) (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 512 + 1 * k.val = k.val; rw [e1]; omega
  · intro k
    show V c main_arg3 (((cfg0.win 1).blk t).view.emb (ix2 k q)) = V c main_arg3 (ix2 k q)
    refine congrArg (V c main_arg3) (funext fun a => Fin.ext ?_)
    match a with
    | ⟨0, _⟩ => show win0_1.index t (0 : Fin 2) * 512 + 1 * k.val = k.val; rw [e2]; omega
    | ⟨1, _⟩ => show win0_1.index t (1 : Fin 2) * 16 + 1 * q.val = q.val; rw [e3]; omega
  · refine congrArg (dense (M := 100000) (K := 512) (N := 16) (V c main_arg0) (V c main_arg3)) (funext fun a => Fin.ext ?_)
    match a with
    | ⟨0, _⟩ => show t.val * 5000 + p.val = win0_2.index t (0 : Fin 2) * 5000 + 1 * p.val; rw [e4]; omega
    | ⟨1, _⟩ => show q.val = win0_2.index t (1 : Fin 2) * 16 + 1 * q.val; rw [e5]; omega

/-- An index of the output array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v27).slice (win0_2.rect t)).set ↔ _
  rw [View.set_slice_whole, Rect.mem_set_unit]
  exact Iff.rfl

/-- Row r of the output lies in the block of point r / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have hT : (i 0).val / 5000 < cfg0.N := by rw [hN]; omega
  obtain ⟨e0, e1, e2, e3, e4, e5⟩ := idx_facts ⟨(i 0).val / 5000, hT⟩
  refine ⟨⟨(i 0).val / 5000, hT⟩, flush0_2 _, ?_⟩
  rw [mem_blk]
  intro a
  match a with
  | ⟨0, _⟩ =>
    show win0_2.index ⟨(i 0).val / 5000, hT⟩ (0 : Fin 2) * 5000 ≤ (i 0).val ∧ (i 0).val < win0_2.index ⟨(i 0).val / 5000, hT⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hT⟩ (1 : Fin 2) * 16 ≤ (i 1).val ∧ (i 1).val < win0_2.index ⟨(i 0).val / 5000, hT⟩ (1 : Fin 2) * 16 + 16
    rw [e5]; omega

/-- The output array after the region: the dense product of the two input arrays as the region finds them. -/
theorem final (c : Dev nD) : (dat0 V c).arrAt 2 cfg0.N
    = dense (M := 100000) (K := 512) (N := 16) (V c main_arg0) (V c main_arg3) :=
  (dat0 V c).arrAt_eq_of_cover 2 _ (fun t _ => flushed_eq V c t) cover

end Cert.KernelIdeal.Dense1

end
-- ==== Proof.BiasRelu.lean ====
/-
  Bias and rectifier, h₁ = max (agg₁ + b₁, 0), computed by the second Pallas region block by block.

  The grid has 10 points; point t reads rows 10000·t … 10000·t + 9999 of the aggregated features and the whole bias
  vector, adds the bias to every row (the vector laid as one row and repeated down the rows), takes the maximum with
  zero entry by entry and writes the rows back.  Entry (p, q) of a block is max (a (10000·t + p, q) + b (q), 0): the
  block is the corresponding rows of one function of the whole arrays, and the 10 blocks tile the 100000 rows.
-/
import proofs.«140395_j18399639896776_2_alg».proof.Proof.Gen.KernelIdeal.Frame
import proofs.«140395_j18399639896776_2_alg».proof.Proof.Spec
import proofs.«140395_j18399639896776_2_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- If entry (p, q) of the feature block is entry (P, q) of the whole array and the bias block is the whole bias, the
    point's entry (p, q) is max (a (P, q) + b (q), 0). -/
theorem pay_eq_biasRelu (A : FVec Ideal ⟨2, ![100000, 16]⟩ .f32) (B : FVec Ideal ⟨1, ![16]⟩ .f32)
    (x0 : Vec Ideal S10000x16 .f32) (x1 : Vec Ideal S16 .f32) (p : Fin 10000) (q : Fin 16) (P : Fin 100000)
    (hx : x0 (ix2 p q) = A (ix2 P q)) (hb : x1 (ix1 q) = B (ix1 q)) :
    k1_pay1 (F := Ideal) x0 x1 (ix2 p q) = biasRelu A B (ix2 P q) := by
  rw [biasRelu_apply, ← hx, ← hb]
  unfold k1_pay1
  show max ((shapeCast S10000x16 x0 shapeCasts_S10000x16_S10000x16) (ix2 p q)
      + (broadcastTo S10000x16 (shapeCast S1x16 x1 shapeCasts_S16_S1x16) broadcasts_S1x16_S10000x16) (ix2 p q))
      (Ideal.ofBits .f32 0x00000000#32) = _
  rw [shapeCast_self, Cert.LibLayout.rowBias_apply]

/-- Where each window's block sits at point t: the features' and the output's at row block t, all columns; the bias
    window's is the whole vector. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of the biased, rectified features of the arrays as the region finds them. -/
theorem flushed_eq (c : Dev nD) (t : Fin cfg1.N) :
    (dat1 V c).flushed 2 t = ((cfg1.win 2).blk t).view.read (Elt Ideal)
      (biasRelu (M := 100000) (N := 16) (V c main_v40) (V c main_arg4)) := by
  show (cfg1.win 2).cut (grid1.coords t) ((dat1 V c).after 2 t) = _
  rw [after1_2]
  unfold out1_2
  rw [View.canon_unit_zero hz]
  simp only [View.ld_unit_zero (S := S10000x16) hz, View.ld_unit_zero (S := S16) hz1]
  obtain ⟨e0, e1, e2, e3, e4⟩ := idx_facts t
  have hN : cfg1.N = 10 := N_1
  have ht : t.val < 10 := hN ▸ t.isLt
  funext j
  obtain ⟨p, q, rfl⟩ : ∃ (p : Fin 10000) (q : Fin 16), j = ix2 p q := ⟨j 0, j 1, eq_ix2 j⟩
  show k1_pay1 (F := Ideal) (iblk1 V c 0 t) (iblk1 V c 1 t) (ix2 p q)
    = biasRelu (M := 100000) (N := 16) (V c main_v40) (V c main_arg4) (((cfg1.win 2).blk t).view.emb (ix2 p q))
  have hP : t.val * 10000 + p.val < 100000 := by have := p.isLt; omega
  refine (pay_eq_biasRelu (V c main_v40) (V c main_arg4) (iblk1 V c 0 t) (iblk1 V c 1 t) p q ⟨t.val * 10000 + p.val, hP⟩ ?_ ?_).trans ?_
  · show V c main_v40 (((cfg1.win 0).blk t).view.emb (ix2 p q)) = V c main_v40 (ix2 ⟨t.val * 10000 + p.val, hP⟩ q)
    refine congrArg (V c main_v40) (funext fun a => Fin.ext ?_)
    match a with
    | ⟨0, _⟩ => show win1_0.index t (0 : Fin 2) * 10000 + 1 * p.val = t.val * 10000 + p.val; rw [e0]; omega
    | ⟨1, _⟩ => show win1_0.index t (1 : Fin 2) * 16 + 1 * q.val = q.val; rw [e1]; omega
  · show V c main_arg4 (((cfg1.win 1).blk t).view.emb (ix1 q)) = V c main_arg4 (ix1 q)
    refine congrArg (V c main_arg4) (funext fun a => Fin.ext ?_)
    match a with
    | ⟨0, _⟩ => show win1_1.index t (0 : Fin 1) * 16 + 1 * q.val = q.val; rw [e2]; omega
  · refine congrArg (biasRelu (M := 100000) (N := 16) (V c main_v40) (V c main_arg4)) (funext fun a => Fin.ext ?_)
    match a with
    | ⟨0, _⟩ => show t.val * 10000 + p.val = win1_2.index t (0 : Fin 2) * 10000 + 1 * p.val; rw [e3]; omega
    | ⟨1, _⟩ => show q.val = win1_2.index t (1 : Fin 2) * 16 + 1 * q.val; rw [e4]; omega

/-- An index of the output array is in point t's block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v41).slice (win1_2.rect t)).set ↔ _
  rw [View.set_slice_whole, Rect.mem_set_unit]
  exact Iff.rfl

/-- Row r of the output lies in the block of point r / 10000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  have hT : (i 0).val / 10000 < cfg1.N := by rw [hN]; omega
  obtain ⟨e0, e1, e2, e3, e4⟩ := idx_facts ⟨(i 0).val / 10000, hT⟩
  refine ⟨⟨(i 0).val / 10000, hT⟩, flush1_2 _, ?_⟩
  rw [mem_blk]
  intro a
  match a with
  | ⟨0, _⟩ =>
    show win1_2.index ⟨(i 0).val / 10000, hT⟩ (0 : Fin 2) * 10000 ≤ (i 0).val ∧ (i 0).val < win1_2.index ⟨(i 0).val / 10000, hT⟩ (0 : Fin 2) * 10000 + 10000
    rw [e3]; show (i 0).val / 10000 * 10000 ≤ (i 0).val ∧ (i 0).val < (i 0).val / 10000 * 10000 + 10000; omega
  | ⟨1, _⟩ =>
    show win1_2.index ⟨(i 0).val / 10000, hT⟩ (1 : Fin 2) * 16 ≤ (i 1).val ∧ (i 1).val < win1_2.index ⟨(i 0).val / 10000, hT⟩ (1 : Fin 2) * 16 + 16
    rw [e4]; omega

/-- The output array after the region: the biased, rectified features of the two input arrays as the region finds them. -/
theorem final (c : Dev nD) : (dat1 V c).arrAt 2 cfg1.N
    = biasRelu (M := 100000) (N := 16) (V c main_v40) (V c main_arg4) :=
  (dat1 V c).arrAt_eq_of_cover 2 _ (fun t _ => flushed_eq V c t) cover

end Cert.KernelIdeal.BiasRelu

end
-- ==== Proof.Dense2.lean ====
/-
  The second dense product, h₂ = h₁ · W₂, computed by the third Pallas region block by block.

  The grid has 10 points; point t multiplies rows 10000·t … 10000·t + 9999 of the left operand by the whole right operand
  (a cast of the left block to its own shape and the rounding of both operands to a narrower float format are the identity on the extended reals) into a zero
  accumulator and writes the product back as rows 10000·t … 10000·t + 9999 of the output.  Entry (p, q) of a block is
  Σ_k x (10000·t + p, k) · W (k, q): the block is the corresponding rows of the dense product of the whole arrays, and
  the 10 blocks tile the 100000 rows, so the output array ends holding the dense product, whatever the
  arrays held when the region was entered.
-/
import proofs.«140395_j18399639896776_2_alg».proof.Proof.Gen.KernelIdeal.Frame
import proofs.«140395_j18399639896776_2_alg».proof.Proof.Spec
import proofs.«140395_j18399639896776_2_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One entry of a point's product: the sum over the contracted index of the operands' products. -/
theorem pay_apply (x0 : Vec Ideal S10000x16 .f32) (x1 : Vec Ideal S16x40 .f32) (p : Fin 10000) (q : Fin 40) :
    k2_pay1 (F := Ideal) x0 x1 (ix2 p q) = ∑ k : Fin 16, x0 (ix2 p k) * x1 (ix2 k q) := by
  unfold k2_pay1
  refine (Cert.LibLayout.matmul_rows_cols_apply dot_S10000x16_S16x40_S10000x40_1_0_0_1_n_n rfl rfl rfl rfl
    (fun j k => by
      unfold DotDims.lhsIdx
      rw [dif_neg (show ¬(0 : Fin 2) ∈ dot_S10000x16_S16x40_S10000x40_1_0_0_1_n_n.lhsBatch by decide),
        dif_pos (show (0 : Fin 2) ∈ dot_S10000x16_S16x40_S10000x40_1_0_0_1_n_n.lhsNonContracting by decide)]
      rfl)
    (fun j k => by
      unfold DotDims.rhsIdx
      rw [dif_neg (show ¬(1 : Fin 2) ∈ dot_S10000x16_S16x40_S10000x40_1_0_0_1_n_n.rhsBatch by decide),
        dif_pos (show (1 : Fin 2) ∈ dot_S10000x16_S16x40_S10000x40_1_0_0_1_n_n.rhsNonContracting by decide)]
      rfl)
    none _ _ p q).trans ?_
  refine Finset.sum_congr rfl fun k _ => ?_
  show (shapeCast S10000x16 x0 shapeCasts_S10000x16_S10000x16) (ix2 p k) * x1 (ix2 k q) = x0 (ix2 p k) * x1 (ix2 k q)
  rw [shapeCast_self]

/-- If row p of the left block is row P of the whole left operand and the right block is the whole right operand, the
    point's entry (p, q) is entry (P, q) of the dense product. -/
theorem pay_eq_dense (X : FVec Ideal ⟨2, ![100000, 16]⟩ .f32) (W : FVec Ideal ⟨2, ![16, 40]⟩ .f32)
    (x0 : Vec Ideal S10000x16 .f32) (x1 : Vec Ideal S16x40 .f32) (p : Fin 10000) (q : Fin 40) (P : Fin 100000)
    (hx : ∀ k : Fin 16, x0 (ix2 p k) = X (ix2 P k)) (hw : ∀ k : Fin 16, x1 (ix2 k q) = W (ix2 k q)) :
    k2_pay1 (F := Ideal) x0 x1 (ix2 p q) = dense X W (ix2 P q) := by
  rw [pay_apply, dense_apply]
  exact Finset.sum_congr rfl fun k _ => by rw [hx k, hw k]

/-- Where each window's block sits at point t: the left operand's and the output's at row block t, all columns; the
    right operand's is the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the dense product of the arrays as the region finds them. -/
theorem flushed_eq (c : Dev nD) (t : Fin cfg2.N) :
    (dat2 V c).flushed 2 t = ((cfg2.win 2).blk t).view.read (Elt Ideal)
      (dense (M := 100000) (K := 16) (N := 40) (V c main_v41) (V c main_arg5)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x40) hz]
  obtain ⟨e0, e1, e2, e3, e4, e5⟩ := idx_facts t
  have hN : cfg2.N = 10 := N_2
  have ht : t.val < 10 := hN ▸ t.isLt
  funext j
  obtain ⟨p, q, rfl⟩ : ∃ (p : Fin 10000) (q : Fin 40), j = ix2 p q := ⟨j 0, j 1, eq_ix2 j⟩
  show k2_pay1 (F := Ideal) (iblk2 V c 0 t) (iblk2 V c 1 t) (ix2 p q)
    = dense (M := 100000) (K := 16) (N := 40) (V c main_v41) (V c main_arg5) (((cfg2.win 2).blk t).view.emb (ix2 p q))
  have hP : t.val * 10000 + p.val < 100000 := by have := p.isLt; omega
  refine (pay_eq_dense (V c main_v41) (V c main_arg5) (iblk2 V c 0 t) (iblk2 V c 1 t) p q ⟨t.val * 10000 + p.val, hP⟩ ?_ ?_).trans ?_
  · intro k
    show V c main_v41 (((cfg2.win 0).blk t).view.emb (ix2 p k)) = V c main_v41 (ix2 ⟨t.val * 10000 + p.val, hP⟩ k)
    refine congrArg (V c main_v41) (funext fun a => Fin.ext ?_)
    match a with
    | ⟨0, _⟩ => show win2_0.index t (0 : Fin 2) * 10000 + 1 * p.val = t.val * 10000 + p.val; rw [e0]; omega
    | ⟨1, _⟩ => show win2_0.index t (1 : Fin 2) * 16 + 1 * k.val = k.val; rw [e1]; omega
  · intro k
    show V c main_arg5 (((cfg2.win 1).blk t).view.emb (ix2 k q)) = V c main_arg5 (ix2 k q)
    refine congrArg (V c main_arg5) (funext fun a => Fin.ext ?_)
    match a with
    | ⟨0, _⟩ => show win2_1.index t (0 : Fin 2) * 16 + 1 * k.val = k.val; rw [e2]; omega
    | ⟨1, _⟩ => show win2_1.index t (1 : Fin 2) * 40 + 1 * q.val = q.val; rw [e3]; omega
  · refine congrArg (dense (M := 100000) (K := 16) (N := 40) (V c main_v41) (V c main_arg5)) (funext fun a => Fin.ext ?_)
    match a with
    | ⟨0, _⟩ => show t.val * 10000 + p.val = win2_2.index t (0 : Fin 2) * 10000 + 1 * p.val; rw [e4]; omega
    | ⟨1, _⟩ => show q.val = win2_2.index t (1 : Fin 2) * 40 + 1 * q.val; rw [e5]; omega

/-- An index of the output array is in point t's block iff each coordinate is in the block's range on its axis. -/
theorem mem_blk (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v42).slice (win2_2.rect t)).set ↔ _
  rw [View.set_slice_whole, Rect.mem_set_unit]
  exact Iff.rfl

/-- Row r of the output lies in the block of point r / 10000. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 10 := N_2
  have hT : (i 0).val / 10000 < cfg2.N := by rw [hN]; omega
  obtain ⟨e0, e1, e2, e3, e4, e5⟩ := idx_facts ⟨(i 0).val / 10000, hT⟩
  refine ⟨⟨(i 0).val / 10000, hT⟩, flush2_2 _, ?_⟩
  rw [mem_blk]
  intro a
  match a with
  | ⟨0, _⟩ =>
    show win2_2.index ⟨(i 0).val / 10000, hT⟩ (0 : Fin 2) * 10000 ≤ (i 0).val ∧ (i 0).val < win2_2.index ⟨(i 0).val / 10000, hT⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hT⟩ (1 : Fin 2) * 40 ≤ (i 1).val ∧ (i 1).val < win2_2.index ⟨(i 0).val / 10000, hT⟩ (1 : Fin 2) * 40 + 40
    rw [e5]; omega

/-- The output array after the region: the dense product of the two input arrays as the region finds them. -/
theorem final (c : Dev nD) : (dat2 V c).arrAt 2 cfg2.N
    = dense (M := 100000) (K := 16) (N := 40) (V c main_v41) (V c main_arg5) :=
  (dat2 V c).arrAt_eq_of_cover 2 _ (fun t _ => flushed_eq V c t) cover

end Cert.KernelIdeal.Dense2

end
-- ==== Proof.LogSoftmax.lean ====
/-
  Bias and row-wise log-softmax, out = log_softmax (agg₂ + b₂), computed by the fourth Pallas region block by block.

  The grid has 10 points; point t reads rows 10000·t … 10000·t + 9999 of the aggregated logits and the whole bias
  vector.  With z (p, u) = a (p, u) + b (u) the biased logits of a row and M p = max_u z (p, u) its maximum (taken from
  −∞), the point stores (z (p, q) − M p) − log Σ_u exp (z (p, u) − M p).  Every entry of a row depends on that row
  only, and a block holds whole rows, so the block is the corresponding rows of one function of the whole arrays; the
  10 blocks tile the 100000 rows.
-/
import proofs.«140395_j18399639896776_2_alg».proof.Proof.Gen.KernelIdeal.Frame
import proofs.«140395_j18399639896776_2_alg».proof.Proof.Spec
import proofs.«140395_j18399639896776_2_alg».proof.Proof.LibLayout
import Idealize.ShloMosaic.Lib.Pipeline.Value
import Idealize.ShloMosaic.Lib.ValueIdx
import Idealize.ShloMosaic.PureOps.Ideal.Laws

set_option maxRecDepth 16384

noncomputable section

namespace Cert.KernelIdeal.LogSoftmax

open Cert.KernelIdeal Cert.KernelIdeal.Gen Cert.GcnSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

section Pieces

variable (x0 : Vec Ideal S10000x40 .f32) (x1 : Vec Ideal S40 .f32)

/-- The block with the bias added to every row. -/
def zBlock : FVec Ideal S10000x40 .f32 :=
  addf (shapeCast S10000x40 x0 shapeCasts_S10000x40_S10000x40)
    (broadcastTo S10000x40 (shapeCast S1x40 x1 shapeCasts_S40_S1x40) broadcasts_S1x40_S10000x40)

theorem zBlock_apply (p : Fin 10000) (u : Fin 40) : zBlock x0 x1 (ix2 p u) = x0 (ix2 p u) + x1 (ix1 u) := by
  show (shapeCast S10000x40 x0 shapeCasts_S10000x40_S10000x40) (ix2 p u)
    + (broadcastTo S10000x40 (shapeCast S1x40 x1 shapeCasts_S40_S1x40) broadcasts_S1x40_S10000x40) (ix2 p u) = _
  rw [shapeCast_self, Cert.LibLayout.rowBias_apply]

/-- The row maxima of the biased block, from −∞. -/
def mBlock : FVec Ideal S10000 .f32 :=
  multiReduction .maximumf [1] S10000 (zBlock x0 x1) 0xFF800000#32 reduces_S10000x40_S10000 (.inl rfl) rfl

theorem mBlock_apply (p : Fin 10000) : mBlock x0 x1 (ix1 p)
    = (Finset.univ : Finset (Fin 40)).fold max (Ideal.ofBits .f32 0xFF800000#32) (fun u => x0 (ix2 p u) + x1 (ix1 u)) := by
  unfold mBlock
  refine (Cert.LibLayout.max_rows_apply (zBlock x0 x1) reduces_S10000x40_S10000 (.inl rfl) rfl p).trans ?_
  exact congrArg (Finset.fold max (Ideal.ofBits .f32 0xFF800000#32) · Finset.univ) (funext fun u => zBlock_apply x0 x1 p u)

/-- The biased block with each row's maximum subtracted. -/
def sBlock : FVec Ideal S10000x40 .f32 :=
  subf (zBlock x0 x1)
    (broadcastTo S10000x40 (shapeCast S10000x1 (mBlock x0 x1) shapeCasts_S10000_S10000x1) broadcasts_S10000x1_S10000x40)

theorem sBlock_apply (p : Fin 10000) (u : Fin 40) : sBlock x0 x1 (ix2 p u)
    = (x0 (ix2 p u) + x1 (ix1 u)) - mBlock x0 x1 (ix1 p) := by
  show zBlock x0 x1 (ix2 p u)
    - (broadcastTo S10000x40 (shapeCast S10000x1 (mBlock x0 x1) shapeCasts_S10000_S10000x1) broadcasts_S10000x1_S10000x40) (ix2 p u) = _
  rw [zBlock_apply, Cert.LibLayout.broadcastTo_a1_ab_apply, Cert.LibLayout.shapeCast_a_a1_apply]

/-- The row sums of the exponentials of the shifted block. -/
def eBlock : FVec Ideal S10000 .f32 :=
  multiReduction .add [1] S10000 (exp (sBlock x0 x1)) 0x00000000#32 reduces_S10000x40_S10000 (.inl rfl) rfl

theorem eBlock_apply (p : Fin 10000) : eBlock x0 x1 (ix1 p)
    = ∑ u : Fin 40, Ideal.exp ((x0 (ix2 p u) + x1 (ix1 u)) - mBlock x0 x1 (ix1 p)) := by
  unfold eBlock
  refine (Cert.LibLayout.sum_rows_apply (exp (sBlock x0 x1)) reduces_S10000x40_S10000 (.inl rfl) rfl p).trans ?_
  refine Finset.sum_congr rfl fun u _ => ?_
  show Ideal.exp (sBlock x0 x1 (ix2 p u)) = _
  rw [sBlock_apply]

/-- The stored block: the shifted block minus the logarithm of each row's sum of exponentials. -/
theorem pay_eq_pieces : k3_pay1 (F := Ideal) x0 x1
    = subf (sBlock x0 x1) (broadcastTo S10000x40 (log (shapeCast S10000x1 (eBlock x0 x1) shapeCasts_S10000_S10000x1)) broadcasts_S10000x1_S10000x40) := rfl

/-- One entry of the stored block, through the row's biased logits f u = x0 (p, u) + x1 (u). -/
theorem pay_apply (p : Fin 10000) (q : Fin 40) : k3_pay1 (F := Ideal) x0 x1 (ix2 p q)
    = ((x0 (ix2 p q) + x1 (ix1 q))
        - (Finset.univ : Finset (Fin 40)).fold max (Ideal.ofBits .f32 0xFF800000#32) (fun u => x0 (ix2 p u) + x1 (ix1 u)))
      - Ideal.log (∑ u : Fin 40, Ideal.exp ((x0 (ix2 p u) + x1 (ix1 u))
        - (Finset.univ : Finset (Fin 40)).fold max (Ideal.ofBits .f32 0xFF800000#32) (fun u => x0 (ix2 p u) + x1 (ix1 u)))) := by
  rw [pay_eq_pieces]
  show sBlock x0 x1 (ix2 p q)
    - (broadcastTo S10000x40 (log (shapeCast S10000x1 (eBlock x0 x1) shapeCasts_S10000_S10000x1)) broadcasts_S10000x1_S10000x40) (ix2 p q) = _
  rw [sBlock_apply, Cert.LibLayout.broadcastTo_a1_ab_apply]
  show _ - Ideal.log ((shapeCast S10000x1 (eBlock x0 x1) shapeCasts_S10000_S10000x1) (ix2 p (0 : Fin 1))) = _
  rw [Cert.LibLayout.shapeCast_a_a1_apply, eBlock_apply, mBlock_apply]

end Pieces

/-- If row p of the logits block is row P of the whole array and the bias block is the whole bias, the point's entry
    (p, q) is entry (P, q) of the biased log-softmax of the whole arrays. -/
theorem pay_eq_logSoftmax (A : FVec Ideal ⟨2, ![100000, 40]⟩ .f32) (B : FVec Ideal ⟨1, ![40]⟩ .f32)
    (x0 : Vec Ideal S10000x40 .f32) (x1 : Vec Ideal S40 .f32) (p : Fin 10000) (q : Fin 40) (P : Fin 100000)
    (hx : ∀ u : Fin 40, x0 (ix2 p u) = A (ix2 P u)) (hb : ∀ u : Fin 40, x1 (ix1 u) = B (ix1 u)) :
    k3_pay1 (F := Ideal) x0 x1 (ix2 p q) = logSoftmaxBias A B (ix2 P q) := by
  have hf : (fun u : Fin 40 => x0 (ix2 p u) + x1 (ix1 u)) = logits A B P := funext fun u => by rw [hx u, hb u]; rfl
  rw [pay_apply, logSoftmaxBias_apply]
  unfold rowMax
  rw [← hf]

/-- Where each window's block sits at point t: the logits' and the output's at row block t, all columns; the bias
    window's is the whole vector. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- What point t writes back is block t of the biased log-softmax of the arrays as the region finds them. -/
theorem flushed_eq (c : Dev nD) (t : Fin cfg3.N) :
    (dat3 V c).flushed 2 t = ((cfg3.win 2).blk t).view.read (Elt Ideal)
      (logSoftmaxBias (M := 100000) (N := 40) (V c main_v55) (V c main_arg6)) := by
  show (cfg3.win 2).cut (grid3.coords t) ((dat3 V c).after 2 t) = _
  rw [after3_2]
  unfold out3_2
  rw [View.canon_unit_zero hz]
  simp only [View.ld_unit_zero (S := S10000x40) hz, View.ld_unit_zero (S := S40) hz1]
  obtain ⟨e0, e1, e2, e3, e4⟩ := idx_facts t
  have hN : cfg3.N = 10 := N_3
  have ht : t.val < 10 := hN ▸ t.isLt
  funext j
  obtain ⟨p, q, rfl⟩ : ∃ (p : Fin 10000) (q : Fin 40), j = ix2 p q := ⟨j 0, j 1, eq_ix2 j⟩
  show k3_pay1 (F := Ideal) (iblk3 V c 0 t) (iblk3 V c 1 t) (ix2 p q)
    = logSoftmaxBias (M := 100000) (N := 40) (V c main_v55) (V c main_arg6) (((cfg3.win 2).blk t).view.emb (ix2 p q))
  have hP : t.val * 10000 + p.val < 100000 := by have := p.isLt; omega
  refine (pay_eq_logSoftmax (V c main_v55) (V c main_arg6) (iblk3 V c 0 t) (iblk3 V c 1 t) p q ⟨t.val * 10000 + p.val, hP⟩ ?_ ?_).trans ?_
  · intro u
    show V c main_v55 (((cfg3.win 0).blk t).view.emb (ix2 p u)) = V c main_v55 (ix2 ⟨t.val * 10000 + p.val, hP⟩ u)
    refine congrArg (V c main_v55) (funext fun a => Fin.ext ?_)
    match a with
    | ⟨0, _⟩ => show win3_0.index t (0 : Fin 2) * 10000 + 1 * p.val = t.val * 10000 + p.val; rw [e0]; omega
    | ⟨1, _⟩ => show win3_0.index t (1 : Fin 2) * 40 + 1 * u.val = u.val; rw [e1]; omega
  · intro u
    show V c main_arg6 (((cfg3.win 1).blk t).view.emb (ix1 u)) = V c main_arg6 (ix1 u)
    refine congrArg (V c main_arg6) (funext fun a => Fin.ext ?_)
    match a with
    | ⟨0, _⟩ => show win3_1.index t (0 : Fin 1) * 40 + 1 * u.val = u.val; rw [e2]; omega
  · refine congrArg (logSoftmaxBias (M := 100000) (N := 40) (V c main_v55) (V c main_arg6)) (funext fun a => Fin.ext ?_)
    match a with
    | ⟨0, _⟩ => show t.val * 10000 + p.val = win3_2.index t (0 : Fin 2) * 10000 + 1 * p.val; rw [e3]; omega
    | ⟨1, _⟩ => show q.val = win3_2.index t (1 : Fin 2) * 40 + 1 * q.val; rw [e4]; omega

/-- An index of the output array is in point t's block iff each coordinate is in the block's range on its axis. -/
theorem mem_blk (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v56).slice (win3_2.rect t)).set ↔ _
  rw [View.set_slice_whole, Rect.mem_set_unit]
  exact Iff.rfl

/-- Row r of the output lies in the block of point r / 10000. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 10 := N_3
  have hT : (i 0).val / 10000 < cfg3.N := by rw [hN]; omega
  obtain ⟨e0, e1, e2, e3, e4⟩ := idx_facts ⟨(i 0).val / 10000, hT⟩
  refine ⟨⟨(i 0).val / 10000, hT⟩, flush3_2 _, ?_⟩
  rw [mem_blk]
  intro a
  match a with
  | ⟨0, _⟩ =>
    show win3_2.index ⟨(i 0).val / 10000, hT⟩ (0 : Fin 2) * 10000 ≤ (i 0).val ∧ (i 0).val < win3_2.index ⟨(i 0).val / 10000, hT⟩ (0 : Fin 2) * 10000 + 10000
    rw [e3]; show (i 0).val / 10000 * 10000 ≤ (i 0).val ∧ (i 0).val < (i 0).val / 10000 * 10000 + 10000; omega
  | ⟨1, _⟩ =>
    show win3_2.index ⟨(i 0).val / 10000, hT⟩ (1 : Fin 2) * 40 ≤ (i 1).val ∧ (i 1).val < win3_2.index ⟨(i 0).val / 10000, hT⟩ (1 : Fin 2) * 40 + 40
    rw [e4]; omega

/-- The output array after the region: the biased log-softmax of the two input arrays as the region finds them. -/
theorem final (c : Dev nD) : (dat3 V c).arrAt 2 cfg3.N
    = logSoftmaxBias (M := 100000) (N := 40) (V c main_v55) (V c main_arg6) :=
  (dat3 V c).arrAt_eq_of_cover 2 _ (fun t _ => flushed_eq V c t) cover

end Cert.KernelIdeal.LogSoftmax

end
-- ==== Proof.RefValue.lean ====
/-
  The reference's four dense stages are the specification's functions of the stage before.

  Reading the reference one operation at a time: its two `dot_general`s are the dense products; its bias (given a unit
  axis and repeated down the rows), addition and maximum against the zero array are the biased rectifier; and
  `log_softmax` of the biased logits — the row maximum by a reduce from −∞ (and once more against −∞, which changes
  nothing: a maximum taken from −∞ is at least −∞), the shifted logits, their exponentials' row sum from zero, its
  logarithm, the difference — is the biased row-wise log-softmax.
-/
import proofs.«140395_j18399639896776_2_alg».proof.Proof.RefReadP
import proofs.«140395_j18399639896776_2_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.ReadP Cert.GcnSpec
open Idealize.ShloMosaic Idealize.ShloMosaic.ValueIdx

variable (x0 : (⟨S100000x512, .f32⟩ : BufTy).Contents (Elt Ideal)) (x1 : (⟨S2x3300000, .i32⟩ : BufTy).Contents (Elt Ideal)) (x2 : (⟨S3300000, .f32⟩ : BufTy).Contents (Elt Ideal)) (x3 : (⟨S512x16, .f32⟩ : BufTy).Contents (Elt Ideal))
  (x4 : (⟨S16, .f32⟩ : BufTy).Contents (Elt Ideal)) (x5 : (⟨S16x40, .f32⟩ : BufTy).Contents (Elt Ideal)) (x6 : (⟨S40, .f32⟩ : BufTy).Contents (Elt Ideal))

/-- The first `dot_general` is the dense product x · W₁. -/
theorem dense1_eq : val_main_v27 (F := Ideal) x0 x3 = dense (M := 100000) (K := 512) (N := 16) x0 x3 := by
  funext i
  obtain ⟨p, q, rfl⟩ : ∃ (p : Fin 100000) (q : Fin 16), i = ix2 p q := ⟨i 0, i 1, eq_ix2 i⟩
  rw [val_main_v27_apply, dense_apply]
  refine Finset.sum_congr rfl fun k _ => ?_
  have el : lidx_main_v27 (ix2 p q) k = ix2 p k := funext fun a => Fin.ext (by match a with | ⟨0, _⟩ => rfl | ⟨1, _⟩ => rfl)
  have er : ridx_main_v27 (ix2 p q) k = ix2 k q := funext fun a => Fin.ext (by match a with | ⟨0, _⟩ => rfl | ⟨1, _⟩ => rfl)
  rw [el, er]

/-- Bias, addition and `relu` are the biased rectifier of the first aggregation. -/
theorem biasRelu_eq : val_main_v44 (F := Ideal) x0 x1 x2 x3 x4
    = biasRelu (M := 100000) (N := 16) (val_main_v40 (F := Ideal) x0 x1 x2 x3) x4 := by
  funext i
  obtain ⟨p, q, rfl⟩ : ∃ (p : Fin 100000) (q : Fin 16), i = ix2 p q := ⟨i 0, i 1, eq_ix2 i⟩
  rw [val_main_v44_apply, val_main_v43_apply, val_main_v42_apply, val_main_v41_apply, val_main_call1_v0_apply,
    val_main_call1_cst_apply, biasRelu_apply]
  have e : idx_main_v41 (idx_main_v42 (ix2 p q)) = ix1 q := funext fun a => Fin.ext (by match a with | ⟨0, _⟩ => rfl)
  rw [e]
  rfl

/-- The second `dot_general` is the dense product h₁ · W₂. -/
theorem dense2_eq : val_main_v68 (F := Ideal) x0 x1 x2 x3 x4 x5
    = dense (M := 100000) (K := 16) (N := 40) (val_main_v44 (F := Ideal) x0 x1 x2 x3 x4) x5 := by
  funext i
  obtain ⟨p, q, rfl⟩ : ∃ (p : Fin 100000) (q : Fin 40), i = ix2 p q := ⟨i 0, i 1, eq_ix2 i⟩
  rw [val_main_v68_apply, dense_apply]
  refine Finset.sum_congr rfl fun k _ => ?_
  have el : lidx_main_v68 (ix2 p q) k = ix2 p k := funext fun a => Fin.ext (by match a with | ⟨0, _⟩ => rfl | ⟨1, _⟩ => rfl)
  have er : ridx_main_v68 (ix2 p q) k = ix2 k q := funext fun a => Fin.ext (by match a with | ⟨0, _⟩ => rfl | ⟨1, _⟩ => rfl)
  rw [el, er]

/-- The biased logits at (p, u). -/
theorem logits_eq (p : Fin 100000) (u : Fin 40) : val_main_v84 (F := Ideal) x0 x1 x2 x3 x4 x5 x6 (ix2 p u)
    = logits (M := 100000) (N := 40) (val_main_v81 (F := Ideal) x0 x1 x2 x3 x4 x5) x6 p u := by
  rw [val_main_v84_apply, val_main_v83_apply, val_main_v82_apply]
  have e : idx_main_v82 (idx_main_v83 (ix2 p u)) = ix1 u := funext fun a => Fin.ext (by match a with | ⟨0, _⟩ => rfl)
  rw [e]
  rfl

/-- The host's maximum-reduce over the columns, from −∞, at row p: the fold of `max` over the row. -/
theorem reduceMax_apply (z : (⟨S100000x40, .f32⟩ : BufTy).Contents (Elt Ideal)) (p : Fin 100000) :
    Host.reduce FloatOps.maximumf z (val_main_call3_cst (F := Ideal)) reducesTo_S100000x40_S100000_d1 h_S_ (ix1 p)
      = (Finset.univ : Finset (Fin 40)).fold max (Ideal.ofBits .f32 0xFF800000#32) (fun u => z (ix2 p u)) := by
  refine (Host.reduce_eq_fold_single (α := Ideal .f32) (s := S100000x40) (t := S100000) (a := 1) (u := S_) FloatOps.maximumf z
    (val_main_call3_cst (F := Ideal)) reducesTo_S100000x40_S100000_d1 (by decide) h_S_ (ix1 p)).trans ?_
  refine congrArg (Finset.fold max (Ideal.ofBits .f32 0xFF800000#32) · Finset.univ) (funext fun u => ?_)
  exact congrArg z (funext fun ax => Fin.ext (by match ax with | ⟨0, _⟩ => rfl | ⟨1, _⟩ => rfl))

/-- The row maximum the reference subtracts: the reduce from −∞, once more against −∞. -/
theorem rowMax_eq (p : Fin 100000) : val_main_call3_v2 (F := Ideal) x0 x1 x2 x3 x4 x5 x6 (ix1 p)
    = rowMax (M := 100000) (N := 40) (val_main_v81 (F := Ideal) x0 x1 x2 x3 x4 x5) x6 p := by
  rw [val_main_call3_v2_apply, val_main_call3_v1_apply, val_main_call3_cst_0_apply]
  unfold val_main_call3_v0
  rw [reduceMax_apply]
  unfold rowMax
  have hf : (fun u : Fin 40 => val_main_v84 (F := Ideal) x0 x1 x2 x3 x4 x5 x6 (ix2 p u))
      = logits (M := 100000) (N := 40) (val_main_v81 (F := Ideal) x0 x1 x2 x3 x4 x5) x6 p := funext fun u => logits_eq x0 x1 x2 x3 x4 x5 x6 p u
  rw [hf, Ideal.maximumf_def, Ideal.ofBits_def]
  exact max_eq_right ((Finset.le_fold_max _).mpr (Or.inl le_rfl))

/-- The shifted logits at (p, u). -/
theorem shifted_eq (p : Fin 100000) (u : Fin 40) : val_main_call3_v5 (F := Ideal) x0 x1 x2 x3 x4 x5 x6 (ix2 p u)
    = logits (M := 100000) (N := 40) (val_main_v81 (F := Ideal) x0 x1 x2 x3 x4 x5) x6 p u
      - rowMax (M := 100000) (N := 40) (val_main_v81 (F := Ideal) x0 x1 x2 x3 x4 x5) x6 p := by
  rw [val_main_call3_v5_apply, val_main_call3_v4_apply, val_main_call3_v3_apply, logits_eq]
  have e : idx_main_call3_v3 (idx_main_call3_v4 (ix2 p u)) = ix1 p := funext fun a => Fin.ext (by match a with | ⟨0, _⟩ => rfl)
  rw [e, rowMax_eq]
  rfl

/-- `log_softmax` of the biased second aggregation is the biased row-wise log-softmax. -/
theorem logSoftmax_eq : val_main_v85 (F := Ideal) x0 x1 x2 x3 x4 x5 x6
    = logSoftmaxBias (M := 100000) (N := 40) (val_main_v81 (F := Ideal) x0 x1 x2 x3 x4 x5) x6 := by
  funext i
  obtain ⟨p, q, rfl⟩ : ∃ (p : Fin 100000) (q : Fin 40), i = ix2 p q := ⟨i 0, i 1, eq_ix2 i⟩
  rw [val_main_v85_apply, val_main_call3_v10_apply, val_main_call3_v9_apply, val_main_call3_v8_apply, val_main_call3_v7_apply,
    val_main_call3_cst_1_apply, shifted_eq, logSoftmaxBias_apply]
  have hs : (∑ k : Fin 40, val_main_call3_v6 (F := Ideal) x0 x1 x2 x3 x4 x5 x6 (idx_main_call3_v7 (idx_main_call3_v8 (idx_main_call3_v10 (ix2 p q))) k))
      = ∑ u : Fin 40, Ideal.exp (logits (M := 100000) (N := 40) (val_main_v81 (F := Ideal) x0 x1 x2 x3 x4 x5) x6 p u
          - rowMax (M := 100000) (N := 40) (val_main_v81 (F := Ideal) x0 x1 x2 x3 x4 x5) x6 p) :=
    Finset.sum_congr rfl fun u _ => by
      have e : idx_main_call3_v7 (idx_main_call3_v8 (idx_main_call3_v10 (ix2 p q))) u = ix2 p u :=
        funext fun a => Fin.ext (by match a with | ⟨0, _⟩ => rfl | ⟨1, _⟩ => rfl)
      rw [e, val_main_call3_v6_apply, shifted_eq, Ideal.hostUnary_exp_def]
  rw [hs]
  simp only [Ideal.subf_def, Ideal.hostUnary_log_def, Ideal.ofBits_def, Ideal.ofBits_zero_f32, zero_add]

end Cert.ReferenceIdeal.RefValue

end
-- ==== Proof.KernelValue.lean ====
/-
  The idealized kernel's result, read back through @main to the arguments.

  @main's boundaries, in order: the edge normalisation (three stretches of host operations), the first dense product,
  the first neighbourhood aggregation (a stretch), the biased rectifier, the second dense product, the second
  aggregation (a stretch), the biased log-softmax.  At each boundary the buffers the later segments read are named:
  a stretch of host operations computes, from the buffers it reads, exactly what the reference's corresponding
  operations compute from the same values (the two programs spell these operations alike, so each stretch is compared
  as a whole and never opened); a Pallas region leaves in its output array the specification's function of its two
  input arrays, which is the reference's stage of the same name; everything else passes a segment unchanged.  The
  reference computes the edge normalisation twice; the kernel computes it once and uses it twice: the two
  computations are the same term of the arguments.
-/
import proofs.«140395_j18399639896776_2_alg».proof.Proof.Dense1
import proofs.«140395_j18399639896776_2_alg».proof.Proof.BiasRelu
import proofs.«140395_j18399639896776_2_alg».proof.Proof.Dense2
import proofs.«140395_j18399639896776_2_alg».proof.Proof.LogSoftmax
import proofs.«140395_j18399639896776_2_alg».proof.Proof.RefValue
import Idealize.ShloMosaic.Lib.StableHlo.Run

set_option maxRecDepth 16384

noncomputable section

namespace Cert.KernelIdeal.Chain

open Cert.KernelIdeal Cert.KernelIdeal.Gen Cert.GcnSpec
open Idealize.ShloMosaic Idealize.ShloMosaic.TcCoe Idealize.SL.Sem Idealize.ShloMosaic.StableHlo

/-- A buffer no operation of a stretch writes keeps its contents through the stretch. -/
macro "stretch_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Values of a module-local function's buffers

The operations of a function called from @main carry their values at the value's tensor type and transport them to the
buffer's type and back; at each of these buffers the two types are the same, so the transports are the identity. -/

theorem toBuf_main_v8 (p1 : main_v8.ty = ⟨S100000, .i1⟩) (p2 : main_v8.space ≠ .host) (p3 : main_v8.isScoped = false) (v : (⟨S100000, .i1⟩ : BufTy).Contents (Elt Ideal)) :
    (TRef.of (T := ⟨S100000, .i1⟩) main_v8 p1 p2 p3).toBuf v = v := rfl
theorem ofBuf_main_v8 (p1 : main_v8.ty = ⟨S100000, .i1⟩) (p2 : main_v8.space ≠ .host) (p3 : main_v8.isScoped = false) (v : main_v8.ty.Contents (Elt Ideal)) :
    (TRef.of (T := ⟨S100000, .i1⟩) main_v8 p1 p2 p3).ofBuf v = v := rfl
theorem toBuf_main_v9 (p1 : main_v9.ty = ⟨S100000, .f32⟩) (p2 : main_v9.space ≠ .host) (p3 : main_v9.isScoped = false) (v : (⟨S100000, .f32⟩ : BufTy).Contents (Elt Ideal)) :
    (TRef.of (T := ⟨S100000, .f32⟩) main_v9 p1 p2 p3).toBuf v = v := rfl
theorem ofBuf_main_v9 (p1 : main_v9.ty = ⟨S100000, .f32⟩) (p2 : main_v9.space ≠ .host) (p3 : main_v9.isScoped = false) (v : main_v9.ty.Contents (Elt Ideal)) :
    (TRef.of (T := ⟨S100000, .f32⟩) main_v9 p1 p2 p3).ofBuf v = v := rfl
theorem toBuf_main_cst_1 (p1 : main_cst_1.ty = ⟨S_, .f32⟩) (p2 : main_cst_1.space ≠ .host) (p3 : main_cst_1.isScoped = false) (v : (⟨S_, .f32⟩ : BufTy).Contents (Elt Ideal)) :
    (TRef.of (T := ⟨S_, .f32⟩) main_cst_1 p1 p2 p3).toBuf v = v := rfl
theorem ofBuf_main_cst_1 (p1 : main_cst_1.ty = ⟨S_, .f32⟩) (p2 : main_cst_1.space ≠ .host) (p3 : main_cst_1.isScoped = false) (v : main_cst_1.ty.Contents (Elt Ideal)) :
    (TRef.of (T := ⟨S_, .f32⟩) main_cst_1 p1 p2 p3).ofBuf v = v := rfl
theorem toBuf_main_call0_v0 (p1 : main_call0_v0.ty = ⟨S_, .f32⟩) (p2 : main_call0_v0.space ≠ .host) (p3 : main_call0_v0.isScoped = false) (v : (⟨S_, .f32⟩ : BufTy).Contents (Elt Ideal)) :
    (TRef.of (T := ⟨S_, .f32⟩) main_call0_v0 p1 p2 p3).toBuf v = v := rfl
theorem ofBuf_main_call0_v0 (p1 : main_call0_v0.ty = ⟨S_, .f32⟩) (p2 : main_call0_v0.space ≠ .host) (p3 : main_call0_v0.isScoped = false) (v : main_call0_v0.ty.Contents (Elt Ideal)) :
    (TRef.of (T := ⟨S_, .f32⟩) main_call0_v0 p1 p2 p3).ofBuf v = v := rfl
theorem toBuf_main_call0_v1 (p1 : main_call0_v1.ty = ⟨S100000, .f32⟩) (p2 : main_call0_v1.space ≠ .host) (p3 : main_call0_v1.isScoped = false) (v : (⟨S100000, .f32⟩ : BufTy).Contents (Elt Ideal)) :
    (TRef.of (T := ⟨S100000, .f32⟩) main_call0_v1 p1 p2 p3).toBuf v = v := rfl
theorem ofBuf_main_call0_v1 (p1 : main_call0_v1.ty = ⟨S100000, .f32⟩) (p2 : main_call0_v1.space ≠ .host) (p3 : main_call0_v1.isScoped = false) (v : main_call0_v1.ty.Contents (Elt Ideal)) :
    (TRef.of (T := ⟨S100000, .f32⟩) main_call0_v1 p1 p2 p3).ofBuf v = v := rfl
theorem toBuf_main_v10 (p1 : main_v10.ty = ⟨S100000, .f32⟩) (p2 : main_v10.space ≠ .host) (p3 : main_v10.isScoped = false) (v : (⟨S100000, .f32⟩ : BufTy).Contents (Elt Ideal)) :
    (TRef.of (T := ⟨S100000, .f32⟩) main_v10 p1 p2 p3).toBuf v = v := rfl
theorem ofBuf_main_v10 (p1 : main_v10.ty = ⟨S100000, .f32⟩) (p2 : main_v10.space ≠ .host) (p3 : main_v10.isScoped = false) (v : main_v10.ty.Contents (Elt Ideal)) :
    (TRef.of (T := ⟨S100000, .f32⟩) main_v10 p1 p2 p3).ofBuf v = v := rfl

/-! ## The stretches of host operations, from any contents -/

section Stretches

variable (W : Valuation τ sig (Elt Ideal))
variable (x0 : (⟨S100000x512, .f32⟩ : BufTy).Contents (Elt Ideal)) (x1 : (⟨S2x3300000, .i32⟩ : BufTy).Contents (Elt Ideal)) (x2 : (⟨S3300000, .f32⟩ : BufTy).Contents (Elt Ideal)) (x3 : (⟨S512x16, .f32⟩ : BufTy).Contents (Elt Ideal))
  (x4 : (⟨S16, .f32⟩ : BufTy).Contents (Elt Ideal)) (x5 : (⟨S16x40, .f32⟩ : BufTy).Contents (Elt Ideal))

/-- The source column of the edge list. -/
theorem s0_v1 (h1 : W (Proc.devRef .tc main_arg1) = x1) :
    StableHlo.after (hostOps0 (F := Ideal)) W (Proc.devRef .tc main_v1) = Cert.ReferenceIdeal.ReadP.val_main_v1 (F := Ideal) x1 := by
  after_results
  rw [h1]
  rfl

/-- The target column of the edge list. -/
theorem s0_v3 (h1 : W (Proc.devRef .tc main_arg1) = x1) :
    StableHlo.after (hostOps0 (F := Ideal)) W (Proc.devRef .tc main_v3) = Cert.ReferenceIdeal.ReadP.val_main_v3 (F := Ideal) x1 := by
  after_results
  rw [h1]
  rfl

/-- Which nodes have positive weighted degree. -/
theorem s0_v8 (h1 : W (Proc.devRef .tc main_arg1) = x1) (h2 : W (Proc.devRef .tc main_arg2) = x2) :
    StableHlo.after (hostOps0 (F := Ideal)) W (Proc.devRef .tc main_v8) = Cert.ReferenceIdeal.ReadP.val_main_v8 (F := Ideal) x1 x2 := by
  after_results
  rw [h1, h2]
  rfl

/-- The inverse square roots of the weighted degrees. -/
theorem s0_v9 (h1 : W (Proc.devRef .tc main_arg1) = x1) (h2 : W (Proc.devRef .tc main_arg2) = x2) :
    StableHlo.after (hostOps0 (F := Ideal)) W (Proc.devRef .tc main_v9) = Cert.ReferenceIdeal.ReadP.val_main_v9 (F := Ideal) x1 x2 := by
  after_results
  rw [h1, h2]
  rfl

/-- The zero the degree-less nodes get. -/
theorem s0_cst1 : StableHlo.after (hostOps0 (F := Ideal)) W (Proc.devRef .tc main_cst_1) = Cert.ReferenceIdeal.ReadP.val_main_cst_1 (F := Ideal) := by
  after_results
  rfl

/-- The inverse square roots where the degree is positive, zero elsewhere. -/
theorem s01_v10 (h8 : W (Proc.devRef .tc main_v8) = Cert.ReferenceIdeal.ReadP.val_main_v8 (F := Ideal) x1 x2) (h9 : W (Proc.devRef .tc main_v9) = Cert.ReferenceIdeal.ReadP.val_main_v9 (F := Ideal) x1 x2)
    (hc : W (Proc.devRef .tc main_cst_1) = Cert.ReferenceIdeal.ReadP.val_main_cst_1 (F := Ideal)) :
    StableHlo.after (hostOps0_1 (F := Ideal)) W (Proc.devRef .tc main_v10) = Cert.ReferenceIdeal.ReadP.val_main_v10 (F := Ideal) x1 x2 := by
  after_results
  simp only [toBuf_main_v8, ofBuf_main_v8, toBuf_main_v9, ofBuf_main_v9, toBuf_main_cst_1, ofBuf_main_cst_1, toBuf_main_call0_v0, ofBuf_main_call0_v0, toBuf_main_call0_v1, ofBuf_main_call0_v1, toBuf_main_v10, ofBuf_main_v10]
  rw [h8, h9, hc]
  rfl

set_option maxHeartbeats 2000000 in
/-- The edge normalisation: the two ends' inverse square roots times the edge weight. -/
theorem s02_v26 (h1 : W (Proc.devRef .tc main_v1) = Cert.ReferenceIdeal.ReadP.val_main_v1 (F := Ideal) x1) (h3 : W (Proc.devRef .tc main_v3) = Cert.ReferenceIdeal.ReadP.val_main_v3 (F := Ideal) x1)
    (h10 : W (Proc.devRef .tc main_v10) = Cert.ReferenceIdeal.ReadP.val_main_v10 (F := Ideal) x1 x2) (h2 : W (Proc.devRef .tc main_arg2) = x2) :
    StableHlo.after (hostOps0_2 (F := Ideal)) W (Proc.devRef .tc main_v26) = Cert.ReferenceIdeal.ReadP.val_main_v26 (F := Ideal) x1 x2 := by
  after_results_simp
  rw [h1, h3, h10, h2]
  rfl

set_option maxHeartbeats 2000000 in
/-- The first aggregation: the dense features gathered at the edges' sources, scaled by the edge normalisation and
    summed into the edges' targets. -/
theorem s1_v40 (h27 : W (Proc.devRef .tc main_v27) = Cert.ReferenceIdeal.ReadP.val_main_v27 (F := Ideal) x0 x3)
    (h1 : W (Proc.devRef .tc main_v1) = Cert.ReferenceIdeal.ReadP.val_main_v1 (F := Ideal) x1) (h3 : W (Proc.devRef .tc main_v3) = Cert.ReferenceIdeal.ReadP.val_main_v3 (F := Ideal) x1)
    (h26 : W (Proc.devRef .tc main_v26) = Cert.ReferenceIdeal.ReadP.val_main_v26 (F := Ideal) x1 x2) :
    StableHlo.after (hostOps1 (F := Ideal)) W (Proc.devRef .tc main_v40) = Cert.ReferenceIdeal.ReadP.val_main_v40 (F := Ideal) x0 x1 x2 x3 := by
  after_results_simp
  rw [h27, h1, h3, h26]
  rfl

set_option maxHeartbeats 4000000 in
/-- The second aggregation, of the second dense features; the reference's second copy of the edge normalisation is the
    same term as its first. -/
theorem s3_v55 (h42 : W (Proc.devRef .tc main_v42) = Cert.ReferenceIdeal.ReadP.val_main_v68 (F := Ideal) x0 x1 x2 x3 x4 x5)
    (h1 : W (Proc.devRef .tc main_v1) = Cert.ReferenceIdeal.ReadP.val_main_v1 (F := Ideal) x1) (h3 : W (Proc.devRef .tc main_v3) = Cert.ReferenceIdeal.ReadP.val_main_v3 (F := Ideal) x1)
    (h26 : W (Proc.devRef .tc main_v26) = Cert.ReferenceIdeal.ReadP.val_main_v26 (F := Ideal) x1 x2) :
    StableHlo.after (hostOps3 (F := Ideal)) W (Proc.devRef .tc main_v55) = Cert.ReferenceIdeal.ReadP.val_main_v81 (F := Ideal) x0 x1 x2 x3 x4 x5 := by
  after_results_simp
  rw [h42, h1, h3, h26]
  rfl

end Stretches

/-! ## The boundaries of @main, in order -/

section Boundaries

variable (m : (ℓ : Loc nD τ sig) → Buf (Elt Ideal) ℓ) (ρ : Dev nD → PrngReg) (c : Dev nD)

/-! ### At launch -/
theorem w0_arg0 : W0 m ρ c (Proc.devRef .tc main_arg0) = (m ((c : Thread nD τ).loc main_arg0)) := rfl
theorem w0_arg2 : W0 m ρ c (Proc.devRef .tc main_arg2) = (m ((c : Thread nD τ).loc main_arg2)) := rfl
theorem w0_arg3 : W0 m ρ c (Proc.devRef .tc main_arg3) = (m ((c : Thread nD τ).loc main_arg3)) := rfl
theorem w0_arg4 : W0 m ρ c (Proc.devRef .tc main_arg4) = (m ((c : Thread nD τ).loc main_arg4)) := rfl
theorem w0_arg5 : W0 m ρ c (Proc.devRef .tc main_arg5) = (m ((c : Thread nD τ).loc main_arg5)) := rfl
theorem w0_arg6 : W0 m ρ c (Proc.devRef .tc main_arg6) = (m ((c : Thread nD τ).loc main_arg6)) := rfl

/-! ### After the first stretch: the edge list's columns, the degrees' sign and inverse square roots -/
theorem w1_v1 : W1 m ρ c (Proc.devRef .tc main_v1) = Cert.ReferenceIdeal.ReadP.val_main_v1 (F := Ideal) (m ((c : Thread nD τ).loc main_arg1)) := s0_v1 (W0 m ρ c) (m ((c : Thread nD τ).loc main_arg1)) rfl
theorem w1_v3 : W1 m ρ c (Proc.devRef .tc main_v3) = Cert.ReferenceIdeal.ReadP.val_main_v3 (F := Ideal) (m ((c : Thread nD τ).loc main_arg1)) := s0_v3 (W0 m ρ c) (m ((c : Thread nD τ).loc main_arg1)) rfl
theorem w1_v8 : W1 m ρ c (Proc.devRef .tc main_v8) = Cert.ReferenceIdeal.ReadP.val_main_v8 (F := Ideal) (m ((c : Thread nD τ).loc main_arg1)) (m ((c : Thread nD τ).loc main_arg2)) := s0_v8 (W0 m ρ c) (m ((c : Thread nD τ).loc main_arg1)) (m ((c : Thread nD τ).loc main_arg2)) rfl rfl
theorem w1_v9 : W1 m ρ c (Proc.devRef .tc main_v9) = Cert.ReferenceIdeal.ReadP.val_main_v9 (F := Ideal) (m ((c : Thread nD τ).loc main_arg1)) (m ((c : Thread nD τ).loc main_arg2)) := s0_v9 (W0 m ρ c) (m ((c : Thread nD τ).loc main_arg1)) (m ((c : Thread nD τ).loc main_arg2)) rfl rfl
theorem w1_cst1 : W1 m ρ c (Proc.devRef .tc main_cst_1) = Cert.ReferenceIdeal.ReadP.val_main_cst_1 (F := Ideal) := s0_cst1 (W0 m ρ c)
theorem w1_arg0 : W1 m ρ c (Proc.devRef .tc main_arg0) = (m ((c : Thread nD τ).loc main_arg0)) :=
  (show W1 m ρ c (Proc.devRef .tc main_arg0) = W0 m ρ c (Proc.devRef .tc main_arg0) by stretch_keeps hostOps0).trans (w0_arg0 m ρ c)
theorem w1_arg2 : W1 m ρ c (Proc.devRef .tc main_arg2) = (m ((c : Thread nD τ).loc main_arg2)) :=
  (show W1 m ρ c (Proc.devRef .tc main_arg2) = W0 m ρ c (Proc.devRef .tc main_arg2) by stretch_keeps hostOps0).trans (w0_arg2 m ρ c)
theorem w1_arg3 : W1 m ρ c (Proc.devRef .tc main_arg3) = (m ((c : Thread nD τ).loc main_arg3)) :=
  (show W1 m ρ c (Proc.devRef .tc main_arg3) = W0 m ρ c (Proc.devRef .tc main_arg3) by stretch_keeps hostOps0).trans (w0_arg3 m ρ c)
theorem w1_arg4 : W1 m ρ c (Proc.devRef .tc main_arg4) = (m ((c : Thread nD τ).loc main_arg4)) :=
  (show W1 m ρ c (Proc.devRef .tc main_arg4) = W0 m ρ c (Proc.devRef .tc main_arg4) by stretch_keeps hostOps0).trans (w0_arg4 m ρ c)
theorem w1_arg5 : W1 m ρ c (Proc.devRef .tc main_arg5) = (m ((c : Thread nD τ).loc main_arg5)) :=
  (show W1 m ρ c (Proc.devRef .tc main_arg5) = W0 m ρ c (Proc.devRef .tc main_arg5) by stretch_keeps hostOps0).trans (w0_arg5 m ρ c)
theorem w1_arg6 : W1 m ρ c (Proc.devRef .tc main_arg6) = (m ((c : Thread nD τ).loc main_arg6)) :=
  (show W1 m ρ c (Proc.devRef .tc main_arg6) = W0 m ρ c (Proc.devRef .tc main_arg6) by stretch_keeps hostOps0).trans (w0_arg6 m ρ c)

/-! ### After the second stretch: the inverse square roots where the degree is positive -/
theorem w2_v10 : W2 m ρ c (Proc.devRef .tc main_v10) = Cert.ReferenceIdeal.ReadP.val_main_v10 (F := Ideal) (m ((c : Thread nD τ).loc main_arg1)) (m ((c : Thread nD τ).loc main_arg2)) :=
  s01_v10 (W1 m ρ c) (m ((c : Thread nD τ).loc main_arg1)) (m ((c : Thread nD τ).loc main_arg2)) (w1_v8 m ρ c) (w1_v9 m ρ c) (w1_cst1 m ρ c)
theorem w2_v1 : W2 m ρ c (Proc.devRef .tc main_v1) = Cert.ReferenceIdeal.ReadP.val_main_v1 (F := Ideal) (m ((c : Thread nD τ).loc main_arg1)) :=
  (show W2 m ρ c (Proc.devRef .tc main_v1) = W1 m ρ c (Proc.devRef .tc main_v1) by stretch_keeps hostOps0_1).trans (w1_v1 m ρ c)
theorem w2_v3 : W2 m ρ c (Proc.devRef .tc main_v3) = Cert.ReferenceIdeal.ReadP.val_main_v3 (F := Ideal) (m ((c : Thread nD τ).loc main_arg1)) :=
  (show W2 m ρ c (Proc.devRef .tc main_v3) = W1 m ρ c (Proc.devRef .tc main_v3) by stretch_keeps hostOps0_1).trans (w1_v3 m ρ c)
theorem w2_arg0 : W2 m ρ c (Proc.devRef .tc main_arg0) = (m ((c : Thread nD τ).loc main_arg0)) :=
  (show W2 m ρ c (Proc.devRef .tc main_arg0) = W1 m ρ c (Proc.devRef .tc main_arg0) by stretch_keeps hostOps0_1).trans (w1_arg0 m ρ c)
theorem w2_arg2 : W2 m ρ c (Proc.devRef .tc main_arg2) = (m ((c : Thread nD τ).loc main_arg2)) :=
  (show W2 m ρ c (Proc.devRef .tc main_arg2) = W1 m ρ c (Proc.devRef .tc main_arg2) by stretch_keeps hostOps0_1).trans (w1_arg2 m ρ c)
theorem w2_arg3 : W2 m ρ c (Proc.devRef .tc main_arg3) = (m ((c : Thread nD τ).loc main_arg3)) :=
  (show W2 m ρ c (Proc.devRef .tc main_arg3) = W1 m ρ c (Proc.devRef .tc main_arg3) by stretch_keeps hostOps0_1).trans (w1_arg3 m ρ c)
theorem w2_arg4 : W2 m ρ c (Proc.devRef .tc main_arg4) = (m ((c : Thread nD τ).loc main_arg4)) :=
  (show W2 m ρ c (Proc.devRef .tc main_arg4) = W1 m ρ c (Proc.devRef .tc main_arg4) by stretch_keeps hostOps0_1).trans (w1_arg4 m ρ c)
theorem w2_arg5 : W2 m ρ c (Proc.devRef .tc main_arg5) = (m ((c : Thread nD τ).loc main_arg5)) :=
  (show W2 m ρ c (Proc.devRef .tc main_arg5) = W1 m ρ c (Proc.devRef .tc main_arg5) by stretch_keeps hostOps0_1).trans (w1_arg5 m ρ c)
theorem w2_arg6 : W2 m ρ c (Proc.devRef .tc main_arg6) = (m ((c : Thread nD τ).loc main_arg6)) :=
  (show W2 m ρ c (Proc.devRef .tc main_arg6) = W1 m ρ c (Proc.devRef .tc main_arg6) by stretch_keeps hostOps0_1).trans (w1_arg6 m ρ c)

/-! ### After the third stretch: the edge normalisation (the first region's entry) -/
theorem w3_v26 : W3 m ρ c (Proc.devRef .tc main_v26) = Cert.ReferenceIdeal.ReadP.val_main_v26 (F := Ideal) (m ((c : Thread nD τ).loc main_arg1)) (m ((c : Thread nD τ).loc main_arg2)) :=
  s02_v26 (W2 m ρ c) (m ((c : Thread nD τ).loc main_arg1)) (m ((c : Thread nD τ).loc main_arg2)) (w2_v1 m ρ c) (w2_v3 m ρ c) (w2_v10 m ρ c) (w2_arg2 m ρ c)
theorem w3_v1 : W3 m ρ c (Proc.devRef .tc main_v1) = Cert.ReferenceIdeal.ReadP.val_main_v1 (F := Ideal) (m ((c : Thread nD τ).loc main_arg1)) :=
  (show W3 m ρ c (Proc.devRef .tc main_v1) = W2 m ρ c (Proc.devRef .tc main_v1) by stretch_keeps hostOps0_2).trans (w2_v1 m ρ c)
theorem w3_v3 : W3 m ρ c (Proc.devRef .tc main_v3) = Cert.ReferenceIdeal.ReadP.val_main_v3 (F := Ideal) (m ((c : Thread nD τ).loc main_arg1)) :=
  (show W3 m ρ c (Proc.devRef .tc main_v3) = W2 m ρ c (Proc.devRef .tc main_v3) by stretch_keeps hostOps0_2).trans (w2_v3 m ρ c)
theorem w3_arg0 : W3 m ρ c (Proc.devRef .tc main_arg0) = (m ((c : Thread nD τ).loc main_arg0)) :=
  (show W3 m ρ c (Proc.devRef .tc main_arg0) = W2 m ρ c (Proc.devRef .tc main_arg0) by stretch_keeps hostOps0_2).trans (w2_arg0 m ρ c)
theorem w3_arg3 : W3 m ρ c (Proc.devRef .tc main_arg3) = (m ((c : Thread nD τ).loc main_arg3)) :=
  (show W3 m ρ c (Proc.devRef .tc main_arg3) = W2 m ρ c (Proc.devRef .tc main_arg3) by stretch_keeps hostOps0_2).trans (w2_arg3 m ρ c)
theorem w3_arg4 : W3 m ρ c (Proc.devRef .tc main_arg4) = (m ((c : Thread nD τ).loc main_arg4)) :=
  (show W3 m ρ c (Proc.devRef .tc main_arg4) = W2 m ρ c (Proc.devRef .tc main_arg4) by stretch_keeps hostOps0_2).trans (w2_arg4 m ρ c)
theorem w3_arg5 : W3 m ρ c (Proc.devRef .tc main_arg5) = (m ((c : Thread nD τ).loc main_arg5)) :=
  (show W3 m ρ c (Proc.devRef .tc main_arg5) = W2 m ρ c (Proc.devRef .tc main_arg5) by stretch_keeps hostOps0_2).trans (w2_arg5 m ρ c)
theorem w3_arg6 : W3 m ρ c (Proc.devRef .tc main_arg6) = (m ((c : Thread nD τ).loc main_arg6)) :=
  (show W3 m ρ c (Proc.devRef .tc main_arg6) = W2 m ρ c (Proc.devRef .tc main_arg6) by stretch_keeps hostOps0_2).trans (w2_arg6 m ρ c)

/-! ### After the first region: h₀ = x · W₁ -/
theorem w4_v27 : W4 m ρ c (Proc.devRef .tc main_v27) = Cert.ReferenceIdeal.ReadP.val_main_v27 (F := Ideal) (m ((c : Thread nD τ).loc main_arg0)) (m ((c : Thread nD τ).loc main_arg3)) := by
  refine (W4_arr m ρ c 2).trans ((Cert.KernelIdeal.Dense1.final (V3 m ρ) c).trans ?_)
  rw [show V3 m ρ c main_arg0 = (m ((c : Thread nD τ).loc main_arg0)) from w3_arg0 m ρ c, show V3 m ρ c main_arg3 = (m ((c : Thread nD τ).loc main_arg3)) from w3_arg3 m ρ c]
  exact (Cert.ReferenceIdeal.RefValue.dense1_eq (m ((c : Thread nD τ).loc main_arg0)) (m ((c : Thread nD τ).loc main_arg3))).symm
theorem w4_v1 : W4 m ρ c (Proc.devRef .tc main_v1) = Cert.ReferenceIdeal.ReadP.val_main_v1 (F := Ideal) (m ((c : Thread nD τ).loc main_arg1)) :=
  (W4_of_ne m ρ c main_v1 (by decide)).trans (w3_v1 m ρ c)
theorem w4_v3 : W4 m ρ c (Proc.devRef .tc main_v3) = Cert.ReferenceIdeal.ReadP.val_main_v3 (F := Ideal) (m ((c : Thread nD τ).loc main_arg1)) :=
  (W4_of_ne m ρ c main_v3 (by decide)).trans (w3_v3 m ρ c)
theorem w4_v26 : W4 m ρ c (Proc.devRef .tc main_v26) = Cert.ReferenceIdeal.ReadP.val_main_v26 (F := Ideal) (m ((c : Thread nD τ).loc main_arg1)) (m ((c : Thread nD τ).loc main_arg2)) :=
  (W4_of_ne m ρ c main_v26 (by decide)).trans (w3_v26 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)

/-! ### After the fourth stretch: the first aggregation (the second region's entry) -/
theorem w5_v40 : W5 m ρ c (Proc.devRef .tc main_v40) = Cert.ReferenceIdeal.ReadP.val_main_v40 (F := Ideal) (m ((c : Thread nD τ).loc main_arg0)) (m ((c : Thread nD τ).loc main_arg1)) (m ((c : Thread nD τ).loc main_arg2)) (m ((c : Thread nD τ).loc main_arg3)) :=
  s1_v40 (W4 m ρ c) (m ((c : Thread nD τ).loc main_arg0)) (m ((c : Thread nD τ).loc main_arg1)) (m ((c : Thread nD τ).loc main_arg2)) (m ((c : Thread nD τ).loc main_arg3)) (w4_v27 m ρ c) (w4_v1 m ρ c) (w4_v3 m ρ c) (w4_v26 m ρ c)
theorem w5_v1 : W5 m ρ c (Proc.devRef .tc main_v1) = Cert.ReferenceIdeal.ReadP.val_main_v1 (F := Ideal) (m ((c : Thread nD τ).loc main_arg1)) :=
  (show W5 m ρ c (Proc.devRef .tc main_v1) = W4 m ρ c (Proc.devRef .tc main_v1) by stretch_keeps hostOps1).trans (w4_v1 m ρ c)
theorem w5_v3 : W5 m ρ c (Proc.devRef .tc main_v3) = Cert.ReferenceIdeal.ReadP.val_main_v3 (F := Ideal) (m ((c : Thread nD τ).loc main_arg1)) :=
  (show W5 m ρ c (Proc.devRef .tc main_v3) = W4 m ρ c (Proc.devRef .tc main_v3) by stretch_keeps hostOps1).trans (w4_v3 m ρ c)
theorem w5_v26 : W5 m ρ c (Proc.devRef .tc main_v26) = Cert.ReferenceIdeal.ReadP.val_main_v26 (F := Ideal) (m ((c : Thread nD τ).loc main_arg1)) (m ((c : Thread nD τ).loc main_arg2)) :=
  (show W5 m ρ c (Proc.devRef .tc main_v26) = W4 m ρ c (Proc.devRef .tc main_v26) by stretch_keeps hostOps1).trans (w4_v26 m ρ c)
theorem w5_arg4 : W5 m ρ c (Proc.devRef .tc main_arg4) = (m ((c : Thread nD τ).loc main_arg4)) :=
  (show W5 m ρ c (Proc.devRef .tc main_arg4) = W4 m ρ c (Proc.devRef .tc main_arg4) by stretch_keeps hostOps1).trans (w4_arg4 m ρ c)
theorem w5_arg5 : W5 m ρ c (Proc.devRef .tc main_arg5) = (m ((c : Thread nD τ).loc main_arg5)) :=
  (show W5 m ρ c (Proc.devRef .tc main_arg5) = W4 m ρ c (Proc.devRef .tc main_arg5) by stretch_keeps hostOps1).trans (w4_arg5 m ρ c)
theorem w5_arg6 : W5 m ρ c (Proc.devRef .tc main_arg6) = (m ((c : Thread nD τ).loc main_arg6)) :=
  (show W5 m ρ c (Proc.devRef .tc main_arg6) = W4 m ρ c (Proc.devRef .tc main_arg6) by stretch_keeps hostOps1).trans (w4_arg6 m ρ c)

/-! ### After the second region: h₁ = max (agg₁ + b₁, 0) -/
theorem w6_v41 : W6 m ρ c (Proc.devRef .tc main_v41) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.KernelIdeal.BiasRelu.final (V5 m ρ) c).trans ?_)
  rw [show V5 m ρ c main_v40 = Cert.ReferenceIdeal.ReadP.val_main_v40 (F := Ideal) (m ((c : Thread nD τ).loc main_arg0)) (m ((c : Thread nD τ).loc main_arg1)) (m ((c : Thread nD τ).loc main_arg2)) (m ((c : Thread nD τ).loc main_arg3)) from w5_v40 m ρ c,
    show V5 m ρ c main_arg4 = (m ((c : Thread nD τ).loc main_arg4)) from w5_arg4 m ρ c]
  exact (Cert.ReferenceIdeal.RefValue.biasRelu_eq (m ((c : Thread nD τ).loc main_arg0)) (m ((c : Thread nD τ).loc main_arg1)) (m ((c : Thread nD τ).loc main_arg2)) (m ((c : Thread nD τ).loc main_arg3)) (m ((c : Thread nD τ).loc main_arg4))).symm
theorem w6_v1 : W6 m ρ c (Proc.devRef .tc main_v1) = Cert.ReferenceIdeal.ReadP.val_main_v1 (F := Ideal) (m ((c : Thread nD τ).loc main_arg1)) :=
  (W6_of_ne m ρ c main_v1 (by decide)).trans (w5_v1 m ρ c)
theorem w6_v3 : W6 m ρ c (Proc.devRef .tc main_v3) = Cert.ReferenceIdeal.ReadP.val_main_v3 (F := Ideal) (m ((c : Thread nD τ).loc main_arg1)) :=
  (W6_of_ne m ρ c main_v3 (by decide)).trans (w5_v3 m ρ c)
theorem w6_v26 : W6 m ρ c (Proc.devRef .tc main_v26) = Cert.ReferenceIdeal.ReadP.val_main_v26 (F := Ideal) (m ((c : Thread nD τ).loc main_arg1)) (m ((c : Thread nD τ).loc main_arg2)) :=
  (W6_of_ne m ρ c main_v26 (by decide)).trans (w5_v26 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)

/-! ### After the third region: h₂ = h₁ · W₂ -/
theorem w7_v42 : W7 m ρ c (Proc.devRef .tc main_v42) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Cert.KernelIdeal.Dense2.final (V6 m ρ) c).trans ?_)
  rw [show V6 m ρ c main_v41 = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from w6_v41 m ρ c,
    show V6 m ρ c main_arg5 = (m ((c : Thread nD τ).loc main_arg5)) from w6_arg5 m ρ c]
  exact (Cert.ReferenceIdeal.RefValue.dense2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm
theorem w7_v1 : W7 m ρ c (Proc.devRef .tc main_v1) = Cert.ReferenceIdeal.ReadP.val_main_v1 (F := Ideal) (m ((c : Thread nD τ).loc main_arg1)) :=
  (W7_of_ne m ρ c main_v1 (by decide)).trans (w6_v1 m ρ c)
theorem w7_v3 : W7 m ρ c (Proc.devRef .tc main_v3) = Cert.ReferenceIdeal.ReadP.val_main_v3 (F := Ideal) (m ((c : Thread nD τ).loc main_arg1)) :=
  (W7_of_ne m ρ c main_v3 (by decide)).trans (w6_v3 m ρ c)
theorem w7_v26 : W7 m ρ c (Proc.devRef .tc main_v26) = Cert.ReferenceIdeal.ReadP.val_main_v26 (F := Ideal) (m ((c : Thread nD τ).loc main_arg1)) (m ((c : Thread nD τ).loc main_arg2)) :=
  (W7_of_ne m ρ c main_v26 (by decide)).trans (w6_v26 m ρ c)
theorem w7_arg6 : W7 m ρ c (Proc.devRef .tc main_arg6) = (m ((c : Thread nD τ).loc main_arg6)) :=
  (W7_of_ne m ρ c main_arg6 (by decide)).trans (w6_arg6 m ρ c)

/-! ### After the fifth stretch: the second aggregation (the fourth region's entry) -/
theorem w8_v55 : W8 m ρ c (Proc.devRef .tc main_v55) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  s3_v55 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (w7_v42 m ρ c) (w7_v1 m ρ c) (w7_v3 m ρ c) (w7_v26 m ρ c)
theorem w8_arg6 : W8 m ρ c (Proc.devRef .tc main_arg6) = (m ((c : Thread nD τ).loc main_arg6)) :=
  (show W8 m ρ c (Proc.devRef .tc main_arg6) = W7 m ρ c (Proc.devRef .tc main_arg6) by stretch_keeps hostOps3).trans (w7_arg6 m ρ c)

/-! ### After the fourth region: the result -/
/-- The kernel's result array, at the last boundary, is the reference's last stage of the arguments. -/
theorem w9_v56 : W9 m ρ c (Proc.devRef .tc main_v56) = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W9_arr m ρ c 2).trans ((Cert.KernelIdeal.LogSoftmax.final (V8 m ρ) c).trans ?_)
  rw [show V8 m ρ c main_v55 = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) from w8_v55 m ρ c,
    show V8 m ρ c main_arg6 = (m ((c : Thread nD τ).loc main_arg6)) from w8_arg6 m ρ c]
  exact (Cert.ReferenceIdeal.RefValue.logSoftmax_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

end Boundaries

end Cert.KernelIdeal.Chain

end
-- ==== Proof.RefFoldLists.lean ====
/-
  The reference's @main, a list of 126 host operations, cut into fourteen stretches: the edge list's columns and the
  first edge normalisation (three stretches), the first dense product and aggregation, bias and rectifier, the second
  edge normalisation (three stretches), the second dense product and aggregation, the biased logits, and their log-softmax in four (the row maxima from −∞; those once more against −∞ and repeated along the rows; the shifted logits and their exponentials' row sums; the result).
  The operations of a called function whose operands are computed by @main itself get a stretch of their own.

  The operations of the functions @main calls (`_where`, `relu`, `log_softmax`) carry their values at the value's
  tensor type and transport them to the buffer's type and back: at every such buffer the two types are the same, so
  the transports are the identity.
-/
import proofs.«140395_j18399639896776_2_alg».proof.Proof.RefReadP
import Idealize.ShloMosaic.Lib.StableHlo.Run

set_option maxRecDepth 16384

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## The transports at the called functions' buffers are the identity -/

theorem toBuf_main_cst_1 (p1 : main_cst_1.ty = ⟨S_, .f32⟩) (p2 : main_cst_1.space ≠ .host) (p3 : main_cst_1.isScoped = false) (v : (⟨S_, .f32⟩ : BufTy).Contents (Elt Ideal)) :
    (TRef.of (T := ⟨S_, .f32⟩) main_cst_1 p1 p2 p3).toBuf v = v := rfl
theorem ofBuf_main_cst_1 (p1 : main_cst_1.ty = ⟨S_, .f32⟩) (p2 : main_cst_1.space ≠ .host) (p3 : main_cst_1.isScoped = false) (v : main_cst_1.ty.Contents (Elt Ideal)) :
    (TRef.of (T := ⟨S_, .f32⟩) main_cst_1 p1 p2 p3).ofBuf v = v := rfl
theorem toBuf_main_call0_v0 (p1 : main_call0_v0.ty = ⟨S_, .f32⟩) (p2 : main_call0_v0.space ≠ .host) (p3 : main_call0_v0.isScoped = false) (v : (⟨S_, .f32⟩ : BufTy).Contents (Elt Ideal)) :
    (TRef.of (T := ⟨S_, .f32⟩) main_call0_v0 p1 p2 p3).toBuf v = v := rfl
theorem ofBuf_main_call0_v0 (p1 : main_call0_v0.ty = ⟨S_, .f32⟩) (p2 : main_call0_v0.space ≠ .host) (p3 : main_call0_v0.isScoped = false) (v : main_call0_v0.ty.Contents (Elt Ideal)) :
    (TRef.of (T := ⟨S_, .f32⟩) main_call0_v0 p1 p2 p3).ofBuf v = v := rfl
theorem toBuf_main_call0_v1 (p1 : main_call0_v1.ty = ⟨S100000, .f32⟩) (p2 : main_call0_v1.space ≠ .host) (p3 : main_call0_v1.isScoped = false) (v : (⟨S100000, .f32⟩ : BufTy).Contents (Elt Ideal)) :
    (TRef.of (T := ⟨S100000, .f32⟩) main_call0_v1 p1 p2 p3).toBuf v = v := rfl
theorem ofBuf_main_call0_v1 (p1 : main_call0_v1.ty = ⟨S100000, .f32⟩) (p2 : main_call0_v1.space ≠ .host) (p3 : main_call0_v1.isScoped = false) (v : main_call0_v1.ty.Contents (Elt Ideal)) :
    (TRef.of (T := ⟨S100000, .f32⟩) main_call0_v1 p1 p2 p3).ofBuf v = v := rfl
theorem toBuf_main_v8 (p1 : main_v8.ty = ⟨S100000, .i1⟩) (p2 : main_v8.space ≠ .host) (p3 : main_v8.isScoped = false) (v : (⟨S100000, .i1⟩ : BufTy).Contents (Elt Ideal)) :
    (TRef.of (T := ⟨S100000, .i1⟩) main_v8 p1 p2 p3).toBuf v = v := rfl
theorem ofBuf_main_v8 (p1 : main_v8.ty = ⟨S100000, .i1⟩) (p2 : main_v8.space ≠ .host) (p3 : main_v8.isScoped = false) (v : main_v8.ty.Contents (Elt Ideal)) :
    (TRef.of (T := ⟨S100000, .i1⟩) main_v8 p1 p2 p3).ofBuf v = v := rfl
theorem toBuf_main_v9 (p1 : main_v9.ty = ⟨S100000, .f32⟩) (p2 : main_v9.space ≠ .host) (p3 : main_v9.isScoped = false) (v : (⟨S100000, .f32⟩ : BufTy).Contents (Elt Ideal)) :
    (TRef.of (T := ⟨S100000, .f32⟩) main_v9 p1 p2 p3).toBuf v = v := rfl
theorem ofBuf_main_v9 (p1 : main_v9.ty = ⟨S100000, .f32⟩) (p2 : main_v9.space ≠ .host) (p3 : main_v9.isScoped = false) (v : main_v9.ty.Contents (Elt Ideal)) :
    (TRef.of (T := ⟨S100000, .f32⟩) main_v9 p1 p2 p3).ofBuf v = v := rfl
theorem toBuf_main_v10 (p1 : main_v10.ty = ⟨S100000, .f32⟩) (p2 : main_v10.space ≠ .host) (p3 : main_v10.isScoped = false) (v : (⟨S100000, .f32⟩ : BufTy).Contents (Elt Ideal)) :
    (TRef.of (T := ⟨S100000, .f32⟩) main_v10 p1 p2 p3).toBuf v = v := rfl
theorem ofBuf_main_v10 (p1 : main_v10.ty = ⟨S100000, .f32⟩) (p2 : main_v10.space ≠ .host) (p3 : main_v10.isScoped = false) (v : main_v10.ty.Contents (Elt Ideal)) :
    (TRef.of (T := ⟨S100000, .f32⟩) main_v10 p1 p2 p3).ofBuf v = v := rfl
theorem toBuf_main_call1_cst (p1 : main_call1_cst.ty = ⟨S_, .f32⟩) (p2 : main_call1_cst.space ≠ .host) (p3 : main_call1_cst.isScoped = false) (v : (⟨S_, .f32⟩ : BufTy).Contents (Elt Ideal)) :
    (TRef.of (T := ⟨S_, .f32⟩) main_call1_cst p1 p2 p3).toBuf v = v := rfl
theorem ofBuf_main_call1_cst (p1 : main_call1_cst.ty = ⟨S_, .f32⟩) (p2 : main_call1_cst.space ≠ .host) (p3 : main_call1_cst.isScoped = false) (v : main_call1_cst.ty.Contents (Elt Ideal)) :
    (TRef.of (T := ⟨S_, .f32⟩) main_call1_cst p1 p2 p3).ofBuf v = v := rfl
theorem toBuf_main_call1_v0 (p1 : main_call1_v0.ty = ⟨S100000x16, .f32⟩) (p2 : main_call1_v0.space ≠ .host) (p3 : main_call1_v0.isScoped = false) (v : (⟨S100000x16, .f32⟩ : BufTy).Contents (Elt Ideal)) :
    (TRef.of (T := ⟨S100000x16, .f32⟩) main_call1_v0 p1 p2 p3).toBuf v = v := rfl
theorem ofBuf_main_call1_v0 (p1 : main_call1_v0.ty = ⟨S100000x16, .f32⟩) (p2 : main_call1_v0.space ≠ .host) (p3 : main_call1_v0.isScoped = false) (v : main_call1_v0.ty.Contents (Elt Ideal)) :
    (TRef.of (T := ⟨S100000x16, .f32⟩) main_call1_v0 p1 p2 p3).ofBuf v = v := rfl
theorem toBuf_main_v43 (p1 : main_v43.ty = ⟨S100000x16, .f32⟩) (p2 : main_v43.space ≠ .host) (p3 : main_v43.isScoped = false) (v : (⟨S100000x16, .f32⟩ : BufTy).Contents (Elt Ideal)) :
    (TRef.of (T := ⟨S100000x16, .f32⟩) main_v43 p1 p2 p3).toBuf v = v := rfl
theorem ofBuf_main_v43 (p1 : main_v43.ty = ⟨S100000x16, .f32⟩) (p2 : main_v43.space ≠ .host) (p3 : main_v43.isScoped = false) (v : main_v43.ty.Contents (Elt Ideal)) :
    (TRef.of (T := ⟨S100000x16, .f32⟩) main_v43 p1 p2 p3).ofBuf v = v := rfl
theorem toBuf_main_v44 (p1 : main_v44.ty = ⟨S100000x16, .f32⟩) (p2 : main_v44.space ≠ .host) (p3 : main_v44.isScoped = false) (v : (⟨S100000x16, .f32⟩ : BufTy).Contents (Elt Ideal)) :
    (TRef.of (T := ⟨S100000x16, .f32⟩) main_v44 p1 p2 p3).toBuf v = v := rfl
theorem ofBuf_main_v44 (p1 : main_v44.ty = ⟨S100000x16, .f32⟩) (p2 : main_v44.space ≠ .host) (p3 : main_v44.isScoped = false) (v : main_v44.ty.Contents (Elt Ideal)) :
    (TRef.of (T := ⟨S100000x16, .f32⟩) main_v44 p1 p2 p3).ofBuf v = v := rfl
theorem toBuf_main_cst_10 (p1 : main_cst_10.ty = ⟨S_, .f32⟩) (p2 : main_cst_10.space ≠ .host) (p3 : main_cst_10.isScoped = false) (v : (⟨S_, .f32⟩ : BufTy).Contents (Elt Ideal)) :
    (TRef.of (T := ⟨S_, .f32⟩) main_cst_10 p1 p2 p3).toBuf v = v := rfl
theorem ofBuf_main_cst_10 (p1 : main_cst_10.ty = ⟨S_, .f32⟩) (p2 : main_cst_10.space ≠ .host) (p3 : main_cst_10.isScoped = false) (v : main_cst_10.ty.Contents (Elt Ideal)) :
    (TRef.of (T := ⟨S_, .f32⟩) main_cst_10 p1 p2 p3).ofBuf v = v := rfl
theorem toBuf_main_call2_v0 (p1 : main_call2_v0.ty = ⟨S_, .f32⟩) (p2 : main_call2_v0.space ≠ .host) (p3 : main_call2_v0.isScoped = false) (v : (⟨S_, .f32⟩ : BufTy).Contents (Elt Ideal)) :
    (TRef.of (T := ⟨S_, .f32⟩) main_call2_v0 p1 p2 p3).toBuf v = v := rfl
theorem ofBuf_main_call2_v0 (p1 : main_call2_v0.ty = ⟨S_, .f32⟩) (p2 : main_call2_v0.space ≠ .host) (p3 : main_call2_v0.isScoped = false) (v : main_call2_v0.ty.Contents (Elt Ideal)) :
    (TRef.of (T := ⟨S_, .f32⟩) main_call2_v0 p1 p2 p3).ofBuf v = v := rfl
theorem toBuf_main_call2_v1 (p1 : main_call2_v1.ty = ⟨S100000, .f32⟩) (p2 : main_call2_v1.space ≠ .host) (p3 : main_call2_v1.isScoped = false) (v : (⟨S100000, .f32⟩ : BufTy).Contents (Elt Ideal)) :
    (TRef.of (T := ⟨S100000, .f32⟩) main_call2_v1 p1 p2 p3).toBuf v = v := rfl
theorem ofBuf_main_call2_v1 (p1 : main_call2_v1.ty = ⟨S100000, .f32⟩) (p2 : main_call2_v1.space ≠ .host) (p3 : main_call2_v1.isScoped = false) (v : main_call2_v1.ty.Contents (Elt Ideal)) :
    (TRef.of (T := ⟨S100000, .f32⟩) main_call2_v1 p1 p2 p3).ofBuf v = v := rfl
theorem toBuf_main_v49 (p1 : main_v49.ty = ⟨S100000, .i1⟩) (p2 : main_v49.space ≠ .host) (p3 : main_v49.isScoped = false) (v : (⟨S100000, .i1⟩ : BufTy).Contents (Elt Ideal)) :
    (TRef.of (T := ⟨S100000, .i1⟩) main_v49 p1 p2 p3).toBuf v = v := rfl
theorem ofBuf_main_v49 (p1 : main_v49.ty = ⟨S100000, .i1⟩) (p2 : main_v49.space ≠ .host) (p3 : main_v49.isScoped = false) (v : main_v49.ty.Contents (Elt Ideal)) :
    (TRef.of (T := ⟨S100000, .i1⟩) main_v49 p1 p2 p3).ofBuf v = v := rfl
theorem toBuf_main_v50 (p1 : main_v50.ty = ⟨S100000, .f32⟩) (p2 : main_v50.space ≠ .host) (p3 : main_v50.isScoped = false) (v : (⟨S100000, .f32⟩ : BufTy).Contents (Elt Ideal)) :
    (TRef.of (T := ⟨S100000, .f32⟩) main_v50 p1 p2 p3).toBuf v = v := rfl
theorem ofBuf_main_v50 (p1 : main_v50.ty = ⟨S100000, .f32⟩) (p2 : main_v50.space ≠ .host) (p3 : main_v50.isScoped = false) (v : main_v50.ty.Contents (Elt Ideal)) :
    (TRef.of (T := ⟨S100000, .f32⟩) main_v50 p1 p2 p3).ofBuf v = v := rfl
theorem toBuf_main_v51 (p1 : main_v51.ty = ⟨S100000, .f32⟩) (p2 : main_v51.space ≠ .host) (p3 : main_v51.isScoped = false) (v : (⟨S100000, .f32⟩ : BufTy).Contents (Elt Ideal)) :
    (TRef.of (T := ⟨S100000, .f32⟩) main_v51 p1 p2 p3).toBuf v = v := rfl
theorem ofBuf_main_v51 (p1 : main_v51.ty = ⟨S100000, .f32⟩) (p2 : main_v51.space ≠ .host) (p3 : main_v51.isScoped = false) (v : main_v51.ty.Contents (Elt Ideal)) :
    (TRef.of (T := ⟨S100000, .f32⟩) main_v51 p1 p2 p3).ofBuf v = v := rfl
theorem toBuf_main_call3_cst (p1 : main_call3_cst.ty = ⟨S_, .f32⟩) (p2 : main_call3_cst.space ≠ .host) (p3 : main_call3_cst.isScoped = false) (v : (⟨S_, .f32⟩ : BufTy).Contents (Elt Ideal)) :
    (TRef.of (T := ⟨S_, .f32⟩) main_call3_cst p1 p2 p3).toBuf v = v := rfl
theorem ofBuf_main_call3_cst (p1 : main_call3_cst.ty = ⟨S_, .f32⟩) (p2 : main_call3_cst.space ≠ .host) (p3 : main_call3_cst.isScoped = false) (v : main_call3_cst.ty.Contents (Elt Ideal)) :
    (TRef.of (T := ⟨S_, .f32⟩) main_call3_cst p1 p2 p3).ofBuf v = v := rfl
theorem toBuf_main_v84 (p1 : main_v84.ty = ⟨S100000x40, .f32⟩) (p2 : main_v84.space ≠ .host) (p3 : main_v84.isScoped = false) (v : (⟨S100000x40, .f32⟩ : BufTy).Contents (Elt Ideal)) :
    (TRef.of (T := ⟨S100000x40, .f32⟩) main_v84 p1 p2 p3).toBuf v = v := rfl
theorem ofBuf_main_v84 (p1 : main_v84.ty = ⟨S100000x40, .f32⟩) (p2 : main_v84.space ≠ .host) (p3 : main_v84.isScoped = false) (v : main_v84.ty.Contents (Elt Ideal)) :
    (TRef.of (T := ⟨S100000x40, .f32⟩) main_v84 p1 p2 p3).ofBuf v = v := rfl
theorem toBuf_main_call3_v0 (p1 : main_call3_v0.ty = ⟨S100000, .f32⟩) (p2 : main_call3_v0.space ≠ .host) (p3 : main_call3_v0.isScoped = false) (v : (⟨S100000, .f32⟩ : BufTy).Contents (Elt Ideal)) :
    (TRef.of (T := ⟨S100000, .f32⟩) main_call3_v0 p1 p2 p3).toBuf v = v := rfl
theorem ofBuf_main_call3_v0 (p1 : main_call3_v0.ty = ⟨S100000, .f32⟩) (p2 : main_call3_v0.space ≠ .host) (p3 : main_call3_v0.isScoped = false) (v : main_call3_v0.ty.Contents (Elt Ideal)) :
    (TRef.of (T := ⟨S100000, .f32⟩) main_call3_v0 p1 p2 p3).ofBuf v = v := rfl
theorem toBuf_main_call3_cst_0 (p1 : main_call3_cst_0.ty = ⟨S_, .f32⟩) (p2 : main_call3_cst_0.space ≠ .host) (p3 : main_call3_cst_0.isScoped = false) (v : (⟨S_, .f32⟩ : BufTy).Contents (Elt Ideal)) :
    (TRef.of (T := ⟨S_, .f32⟩) main_call3_cst_0 p1 p2 p3).toBuf v = v := rfl
theorem ofBuf_main_call3_cst_0 (p1 : main_call3_cst_0.ty = ⟨S_, .f32⟩) (p2 : main_call3_cst_0.space ≠ .host) (p3 : main_call3_cst_0.isScoped = false) (v : main_call3_cst_0.ty.Contents (Elt Ideal)) :
    (TRef.of (T := ⟨S_, .f32⟩) main_call3_cst_0 p1 p2 p3).ofBuf v = v := rfl
theorem toBuf_main_call3_v1 (p1 : main_call3_v1.ty = ⟨S100000, .f32⟩) (p2 : main_call3_v1.space ≠ .host) (p3 : main_call3_v1.isScoped = false) (v : (⟨S100000, .f32⟩ : BufTy).Contents (Elt Ideal)) :
    (TRef.of (T := ⟨S100000, .f32⟩) main_call3_v1 p1 p2 p3).toBuf v = v := rfl
theorem ofBuf_main_call3_v1 (p1 : main_call3_v1.ty = ⟨S100000, .f32⟩) (p2 : main_call3_v1.space ≠ .host) (p3 : main_call3_v1.isScoped = false) (v : main_call3_v1.ty.Contents (Elt Ideal)) :
    (TRef.of (T := ⟨S100000, .f32⟩) main_call3_v1 p1 p2 p3).ofBuf v = v := rfl
theorem toBuf_main_call3_v2 (p1 : main_call3_v2.ty = ⟨S100000, .f32⟩) (p2 : main_call3_v2.space ≠ .host) (p3 : main_call3_v2.isScoped = false) (v : (⟨S100000, .f32⟩ : BufTy).Contents (Elt Ideal)) :
    (TRef.of (T := ⟨S100000, .f32⟩) main_call3_v2 p1 p2 p3).toBuf v = v := rfl
theorem ofBuf_main_call3_v2 (p1 : main_call3_v2.ty = ⟨S100000, .f32⟩) (p2 : main_call3_v2.space ≠ .host) (p3 : main_call3_v2.isScoped = false) (v : main_call3_v2.ty.Contents (Elt Ideal)) :
    (TRef.of (T := ⟨S100000, .f32⟩) main_call3_v2 p1 p2 p3).ofBuf v = v := rfl
theorem toBuf_main_call3_v3 (p1 : main_call3_v3.ty = ⟨S100000x1, .f32⟩) (p2 : main_call3_v3.space ≠ .host) (p3 : main_call3_v3.isScoped = false) (v : (⟨S100000x1, .f32⟩ : BufTy).Contents (Elt Ideal)) :
    (TRef.of (T := ⟨S100000x1, .f32⟩) main_call3_v3 p1 p2 p3).toBuf v = v := rfl
theorem ofBuf_main_call3_v3 (p1 : main_call3_v3.ty = ⟨S100000x1, .f32⟩) (p2 : main_call3_v3.space ≠ .host) (p3 : main_call3_v3.isScoped = false) (v : main_call3_v3.ty.Contents (Elt Ideal)) :
    (TRef.of (T := ⟨S100000x1, .f32⟩) main_call3_v3 p1 p2 p3).ofBuf v = v := rfl
theorem toBuf_main_call3_v4 (p1 : main_call3_v4.ty = ⟨S100000x40, .f32⟩) (p2 : main_call3_v4.space ≠ .host) (p3 : main_call3_v4.isScoped = false) (v : (⟨S100000x40, .f32⟩ : BufTy).Contents (Elt Ideal)) :
    (TRef.of (T := ⟨S100000x40, .f32⟩) main_call3_v4 p1 p2 p3).toBuf v = v := rfl
theorem ofBuf_main_call3_v4 (p1 : main_call3_v4.ty = ⟨S100000x40, .f32⟩) (p2 : main_call3_v4.space ≠ .host) (p3 : main_call3_v4.isScoped = false) (v : main_call3_v4.ty.Contents (Elt Ideal)) :
    (TRef.of (T := ⟨S100000x40, .f32⟩) main_call3_v4 p1 p2 p3).ofBuf v = v := rfl
theorem toBuf_main_call3_v5 (p1 : main_call3_v5.ty = ⟨S100000x40, .f32⟩) (p2 : main_call3_v5.space ≠ .host) (p3 : main_call3_v5.isScoped = false) (v : (⟨S100000x40, .f32⟩ : BufTy).Contents (Elt Ideal)) :
    (TRef.of (T := ⟨S100000x40, .f32⟩) main_call3_v5 p1 p2 p3).toBuf v = v := rfl
theorem ofBuf_main_call3_v5 (p1 : main_call3_v5.ty = ⟨S100000x40, .f32⟩) (p2 : main_call3_v5.space ≠ .host) (p3 : main_call3_v5.isScoped = false) (v : main_call3_v5.ty.Contents (Elt Ideal)) :
    (TRef.of (T := ⟨S100000x40, .f32⟩) main_call3_v5 p1 p2 p3).ofBuf v = v := rfl
theorem toBuf_main_call3_v6 (p1 : main_call3_v6.ty = ⟨S100000x40, .f32⟩) (p2 : main_call3_v6.space ≠ .host) (p3 : main_call3_v6.isScoped = false) (v : (⟨S100000x40, .f32⟩ : BufTy).Contents (Elt Ideal)) :
    (TRef.of (T := ⟨S100000x40, .f32⟩) main_call3_v6 p1 p2 p3).toBuf v = v := rfl
theorem ofBuf_main_call3_v6 (p1 : main_call3_v6.ty = ⟨S100000x40, .f32⟩) (p2 : main_call3_v6.space ≠ .host) (p3 : main_call3_v6.isScoped = false) (v : main_call3_v6.ty.Contents (Elt Ideal)) :
    (TRef.of (T := ⟨S100000x40, .f32⟩) main_call3_v6 p1 p2 p3).ofBuf v = v := rfl
theorem toBuf_main_call3_cst_1 (p1 : main_call3_cst_1.ty = ⟨S_, .f32⟩) (p2 : main_call3_cst_1.space ≠ .host) (p3 : main_call3_cst_1.isScoped = false) (v : (⟨S_, .f32⟩ : BufTy).Contents (Elt Ideal)) :
    (TRef.of (T := ⟨S_, .f32⟩) main_call3_cst_1 p1 p2 p3).toBuf v = v := rfl
theorem ofBuf_main_call3_cst_1 (p1 : main_call3_cst_1.ty = ⟨S_, .f32⟩) (p2 : main_call3_cst_1.space ≠ .host) (p3 : main_call3_cst_1.isScoped = false) (v : main_call3_cst_1.ty.Contents (Elt Ideal)) :
    (TRef.of (T := ⟨S_, .f32⟩) main_call3_cst_1 p1 p2 p3).ofBuf v = v := rfl
theorem toBuf_main_call3_v7 (p1 : main_call3_v7.ty = ⟨S100000, .f32⟩) (p2 : main_call3_v7.space ≠ .host) (p3 : main_call3_v7.isScoped = false) (v : (⟨S100000, .f32⟩ : BufTy).Contents (Elt Ideal)) :
    (TRef.of (T := ⟨S100000, .f32⟩) main_call3_v7 p1 p2 p3).toBuf v = v := rfl
theorem ofBuf_main_call3_v7 (p1 : main_call3_v7.ty = ⟨S100000, .f32⟩) (p2 : main_call3_v7.space ≠ .host) (p3 : main_call3_v7.isScoped = false) (v : main_call3_v7.ty.Contents (Elt Ideal)) :
    (TRef.of (T := ⟨S100000, .f32⟩) main_call3_v7 p1 p2 p3).ofBuf v = v := rfl
theorem toBuf_main_call3_v8 (p1 : main_call3_v8.ty = ⟨S100000x1, .f32⟩) (p2 : main_call3_v8.space ≠ .host) (p3 : main_call3_v8.isScoped = false) (v : (⟨S100000x1, .f32⟩ : BufTy).Contents (Elt Ideal)) :
    (TRef.of (T := ⟨S100000x1, .f32⟩) main_call3_v8 p1 p2 p3).toBuf v = v := rfl
theorem ofBuf_main_call3_v8 (p1 : main_call3_v8.ty = ⟨S100000x1, .f32⟩) (p2 : main_call3_v8.space ≠ .host) (p3 : main_call3_v8.isScoped = false) (v : main_call3_v8.ty.Contents (Elt Ideal)) :
    (TRef.of (T := ⟨S100000x1, .f32⟩) main_call3_v8 p1 p2 p3).ofBuf v = v := rfl
theorem toBuf_main_call3_v9 (p1 : main_call3_v9.ty = ⟨S100000x1, .f32⟩) (p2 : main_call3_v9.space ≠ .host) (p3 : main_call3_v9.isScoped = false) (v : (⟨S100000x1, .f32⟩ : BufTy).Contents (Elt Ideal)) :
    (TRef.of (T := ⟨S100000x1, .f32⟩) main_call3_v9 p1 p2 p3).toBuf v = v := rfl
theorem ofBuf_main_call3_v9 (p1 : main_call3_v9.ty = ⟨S100000x1, .f32⟩) (p2 : main_call3_v9.space ≠ .host) (p3 : main_call3_v9.isScoped = false) (v : main_call3_v9.ty.Contents (Elt Ideal)) :
    (TRef.of (T := ⟨S100000x1, .f32⟩) main_call3_v9 p1 p2 p3).ofBuf v = v := rfl
theorem toBuf_main_call3_v10 (p1 : main_call3_v10.ty = ⟨S100000x40, .f32⟩) (p2 : main_call3_v10.space ≠ .host) (p3 : main_call3_v10.isScoped = false) (v : (⟨S100000x40, .f32⟩ : BufTy).Contents (Elt Ideal)) :
    (TRef.of (T := ⟨S100000x40, .f32⟩) main_call3_v10 p1 p2 p3).toBuf v = v := rfl
theorem ofBuf_main_call3_v10 (p1 : main_call3_v10.ty = ⟨S100000x40, .f32⟩) (p2 : main_call3_v10.space ≠ .host) (p3 : main_call3_v10.isScoped = false) (v : main_call3_v10.ty.Contents (Elt Ideal)) :
    (TRef.of (T := ⟨S100000x40, .f32⟩) main_call3_v10 p1 p2 p3).ofBuf v = v := rfl
theorem toBuf_main_v85 (p1 : main_v85.ty = ⟨S100000x40, .f32⟩) (p2 : main_v85.space ≠ .host) (p3 : main_v85.isScoped = false) (v : (⟨S100000x40, .f32⟩ : BufTy).Contents (Elt Ideal)) :
    (TRef.of (T := ⟨S100000x40, .f32⟩) main_v85 p1 p2 p3).toBuf v = v := rfl
theorem ofBuf_main_v85 (p1 : main_v85.ty = ⟨S100000x40, .f32⟩) (p2 : main_v85.space ≠ .host) (p3 : main_v85.isScoped = false) (v : main_v85.ty.Contents (Elt Ideal)) :
    (TRef.of (T := ⟨S100000x40, .f32⟩) main_v85 p1 p2 p3).ofBuf v = v := rfl

/-! ## @main's operations in fourteen stretches -/

section Lists
variable {F : FTy → Type} [FloatOps F]
/-- Operations 1 … 13 of @main. -/
abbrev refOps_a1 : List (HloOp τ sig (Elt F)) :=
  [ unary main_arg1 main_v0 ((extractStridedSlice S1x3300000 ![0, 0] · slices_S2x3300000_S1x3300000_0_0) : (⟨S2x3300000, .i32⟩ : BufTy).Contents (Elt F) → (⟨S1x3300000, .i32⟩ : BufTy).Contents (Elt F)),
    reshape main_v0 main_v1 rfl shapeCasts_S1x3300000_S3300000,
    unary main_arg1 main_v2 ((extractStridedSlice S1x3300000 ![1, 0] · slices_S2x3300000_S1x3300000_1_0) : (⟨S2x3300000, .i32⟩ : BufTy).Contents (Elt F) → (⟨S1x3300000, .i32⟩ : BufTy).Contents (Elt F)),
    reshape main_v2 main_v3 rfl shapeCasts_S1x3300000_S3300000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    unary main_v3 main_v5 (broadcastInDim S3300000x1 ![0] bcast_S3300000_S3300000x1_0 : (⟨S3300000, .i32⟩ : BufTy).Contents (Elt F) → (⟨S3300000x1, .i32⟩ : BufTy).Contents (Elt F)),
    ternary main_v4 main_v5 main_arg2 main_v6 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    binary main_v6 main_v7 main_v8 (cmpf .ogt : (⟨S100000, .f32⟩ : BufTy).Contents (Elt F) → (⟨S100000, .f32⟩ : BufTy).Contents (Elt F) → (⟨S100000, .i1⟩ : BufTy).Contents (Elt F)),
    unary main_v6 main_v9 (Host.rsqrt : (⟨S100000, .f32⟩ : BufTy).Contents (Elt F) → (⟨S100000, .f32⟩ : BufTy).Contents (Elt F)),
    nullary main_cst_1 (constant S_ .f32 0x00000000#32) ]
/-- Operations 14 … 16 of @main. -/
abbrev refOps_a2 : List (HloOp τ sig (Elt F)) :=
  [ TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v8) (TRef.of (T := ⟨S100000, .f32⟩) main_v9) (TRef.of (T := ⟨S100000, .f32⟩) main_call0_v1) (TRef.of (T := ⟨S100000, .f32⟩) main_v10) select ]
/-- Operations 17 … 36 of @main. -/
abbrev refOps_b : List (HloOp τ sig (Elt F)) :=
  [ nullary main_c (constantI S_ 32 0#32),
    unary main_c main_v11 (broadcastInDim S3300000 ![] bcast_S_S3300000 : (⟨S_, .i32⟩ : BufTy).Contents (Elt F) → (⟨S3300000, .i32⟩ : BufTy).Contents (Elt F)),
    binary main_v1 main_v11 main_v12 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v13 (broadcastInDim S3300000 ![] bcast_S_S3300000 : (⟨S_, .i32⟩ : BufTy).Contents (Elt F) → (⟨S3300000, .i32⟩ : BufTy).Contents (Elt F)),
    binary main_v1 main_v13 main_v14 (addi : (⟨S3300000, .i32⟩ : BufTy).Contents (Elt F) → (⟨S3300000, .i32⟩ : BufTy).Contents (Elt F) → (⟨S3300000, .i32⟩ : BufTy).Contents (Elt F)),
    ternary main_v12 main_v14 main_v1 main_v15 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v15 main_v16 (broadcastInDim S3300000x1 ![0] bcast_S3300000_S3300000x1_0 : (⟨S3300000, .i32⟩ : BufTy).Contents (Elt F) → (⟨S3300000x1, .i32⟩ : BufTy).Contents (Elt F)),
    binary main_v10 main_v16 main_v17 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v17 main_arg2 main_v18 (mulf : (⟨S3300000, .f32⟩ : BufTy).Contents (Elt F) → (⟨S3300000, .f32⟩ : BufTy).Contents (Elt F) → (⟨S3300000, .f32⟩ : BufTy).Contents (Elt F)),
    nullary main_c_3 (constantI S_ 32 0#32),
    unary main_c_3 main_v19 (broadcastInDim S3300000 ![] bcast_S_S3300000 : (⟨S_, .i32⟩ : BufTy).Contents (Elt F) → (⟨S3300000, .i32⟩ : BufTy).Contents (Elt F)),
    binary main_v3 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v21 (broadcastInDim S3300000 ![] bcast_S_S3300000 : (⟨S_, .i32⟩ : BufTy).Contents (Elt F) → (⟨S3300000, .i32⟩ : BufTy).Contents (Elt F)),
    binary main_v3 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v3 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v10 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)) ]
/-- Operations 37 … 53 of @main. -/
abbrev refOps_c : List (HloOp τ sig (Elt F)) :=
  [ binary main_arg0 main_arg3 main_v27 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_5 (constantI S_ 32 0#32),
    unary main_c_5 main_v28 (broadcastInDim S3300000 ![] bcast_S_S3300000 : (⟨S_, .i32⟩ : BufTy).Contents (Elt F) → (⟨S3300000, .i32⟩ : BufTy).Contents (Elt F)),
    binary main_v1 main_v28 main_v29 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v30 (broadcastInDim S3300000 ![] bcast_S_S3300000 : (⟨S_, .i32⟩ : BufTy).Contents (Elt F) → (⟨S3300000, .i32⟩ : BufTy).Contents (Elt F)),
    binary main_v1 main_v30 main_v31 (addi : (⟨S3300000, .i32⟩ : BufTy).Contents (Elt F) → (⟨S3300000, .i32⟩ : BufTy).Contents (Elt F) → (⟨S3300000, .i32⟩ : BufTy).Contents (Elt F)),
    ternary main_v29 main_v31 main_v1 main_v32 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v32 main_v33 (broadcastInDim S3300000x1 ![0] bcast_S3300000_S3300000x1_0 : (⟨S3300000, .i32⟩ : BufTy).Contents (Elt F) → (⟨S3300000x1, .i32⟩ : BufTy).Contents (Elt F)),
    binary main_v27 main_v33 main_v34 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v26 main_v35 (broadcastInDim S3300000x1 ![0] bcast_S3300000_S3300000x1_0 : (⟨S3300000, .f32⟩ : BufTy).Contents (Elt F) → (⟨S3300000x1, .f32⟩ : BufTy).Contents (Elt F)),
    unary main_v35 main_v36 (broadcastInDim S3300000x16 ![0, 1] bcast_S3300000x1_S3300000x16_0_1 : (⟨S3300000x1, .f32⟩ : BufTy).Contents (Elt F) → (⟨S3300000x16, .f32⟩ : BufTy).Contents (Elt F)),
    binary main_v34 main_v36 main_v37 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v38 (broadcastInDim S100000x16 ![] bcast_S_S100000x16 : (⟨S_, .f32⟩ : BufTy).Contents (Elt F) → (⟨S100000x16, .f32⟩ : BufTy).Contents (Elt F)),
    unary main_v3 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v37 main_v40 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- Operations 54 … 59 of @main. -/
abbrev refOps_d : List (HloOp τ sig (Elt F)) :=
  [ unary main_arg4 main_v41 (broadcastInDim S1x16 ![1] bcast_S16_S1x16_1 : (⟨S16, .f32⟩ : BufTy).Contents (Elt F) → (⟨S1x16, .f32⟩ : BufTy).Contents (Elt F)),
    unary main_v41 main_v42 (broadcastInDim S100000x16 ![0, 1] bcast_S1x16_S100000x16_0_1 : (⟨S1x16, .f32⟩ : BufTy).Contents (Elt F) → (⟨S100000x16, .f32⟩ : BufTy).Contents (Elt F)),
    binary main_v40 main_v42 main_v43 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v43) (TRef.of (T := ⟨S100000x16, .f32⟩) main_call1_v0) (TRef.of (T := ⟨S100000x16, .f32⟩) main_v44) maximumf ]
/-- Operations 60 … 68 of @main. -/
abbrev refOps_e1 : List (HloOp τ sig (Elt F)) :=
  [ nullary main_cst_8 (constant S_ .f32 0x00000000#32),
    unary main_cst_8 main_v45 (broadcastInDim S100000 ![] bcast_S_S100000 : (⟨S_, .f32⟩ : BufTy).Contents (Elt F) → (⟨S100000, .f32⟩ : BufTy).Contents (Elt F)),
    unary main_v3 main_v46 (broadcastInDim S3300000x1 ![0] bcast_S3300000_S3300000x1_0 : (⟨S3300000, .i32⟩ : BufTy).Contents (Elt F) → (⟨S3300000x1, .i32⟩ : BufTy).Contents (Elt F)),
    ternary main_v45 main_v46 main_arg2 main_v47 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_9 (constant S_ .f32 0x00000000#32),
    unary main_cst_9 main_v48 (broadcastInDim S100000 ![] bcast_S_S100000 : (⟨S_, .f32⟩ : BufTy).Contents (Elt F) → (⟨S100000, .f32⟩ : BufTy).Contents (Elt F)),
    binary main_v47 main_v48 main_v49 (cmpf .ogt : (⟨S100000, .f32⟩ : BufTy).Contents (Elt F) → (⟨S100000, .f32⟩ : BufTy).Contents (Elt F) → (⟨S100000, .i1⟩ : BufTy).Contents (Elt F)),
    unary main_v47 main_v50 (Host.rsqrt : (⟨S100000, .f32⟩ : BufTy).Contents (Elt F) → (⟨S100000, .f32⟩ : BufTy).Contents (Elt F)),
    nullary main_cst_10 (constant S_ .f32 0x00000000#32) ]
/-- Operations 69 … 71 of @main. -/
abbrev refOps_e2 : List (HloOp τ sig (Elt F)) :=
  [ TRef.unary (TRef.of (T := ⟨S_, .f32⟩) main_cst_10) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v49) (TRef.of (T := ⟨S100000, .f32⟩) main_v50) (TRef.of (T := ⟨S100000, .f32⟩) main_call2_v1) (TRef.of (T := ⟨S100000, .f32⟩) main_v51) select ]
/-- Operations 72 … 91 of @main. -/
abbrev refOps_f : List (HloOp τ sig (Elt F)) :=
  [ nullary main_c_11 (constantI S_ 32 0#32),
    unary main_c_11 main_v52 (broadcastInDim S3300000 ![] bcast_S_S3300000 : (⟨S_, .i32⟩ : BufTy).Contents (Elt F) → (⟨S3300000, .i32⟩ : BufTy).Contents (Elt F)),
    binary main_v1 main_v52 main_v53 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v54 (broadcastInDim S3300000 ![] bcast_S_S3300000 : (⟨S_, .i32⟩ : BufTy).Contents (Elt F) → (⟨S3300000, .i32⟩ : BufTy).Contents (Elt F)),
    binary main_v1 main_v54 main_v55 (addi : (⟨S3300000, .i32⟩ : BufTy).Contents (Elt F) → (⟨S3300000, .i32⟩ : BufTy).Contents (Elt F) → (⟨S3300000, .i32⟩ : BufTy).Contents (Elt F)),
    ternary main_v53 main_v55 main_v1 main_v56 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v56 main_v57 (broadcastInDim S3300000x1 ![0] bcast_S3300000_S3300000x1_0 : (⟨S3300000, .i32⟩ : BufTy).Contents (Elt F) → (⟨S3300000x1, .i32⟩ : BufTy).Contents (Elt F)),
    binary main_v51 main_v57 main_v58 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v58 main_arg2 main_v59 (mulf : (⟨S3300000, .f32⟩ : BufTy).Contents (Elt F) → (⟨S3300000, .f32⟩ : BufTy).Contents (Elt F) → (⟨S3300000, .f32⟩ : BufTy).Contents (Elt F)),
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v3 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v3 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v3 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v51 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v59 main_v66 main_v67 (mulf : (⟨S3300000, .f32⟩ : BufTy).Contents (Elt F) → (⟨S3300000, .f32⟩ : BufTy).Contents (Elt F) → (⟨S3300000, .f32⟩ : BufTy).Contents (Elt F)) ]
/-- Operations 92 … 108 of @main. -/
abbrev refOps_g : List (HloOp τ sig (Elt F)) :=
  [ binary main_v44 main_arg5 main_v68 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_15 (constantI S_ 32 0#32),
    unary main_c_15 main_v69 (broadcastInDim S3300000 ![] bcast_S_S3300000 : (⟨S_, .i32⟩ : BufTy).Contents (Elt F) → (⟨S3300000, .i32⟩ : BufTy).Contents (Elt F)),
    binary main_v1 main_v69 main_v70 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v71 (broadcastInDim S3300000 ![] bcast_S_S3300000 : (⟨S_, .i32⟩ : BufTy).Contents (Elt F) → (⟨S3300000, .i32⟩ : BufTy).Contents (Elt F)),
    binary main_v1 main_v71 main_v72 (addi : (⟨S3300000, .i32⟩ : BufTy).Contents (Elt F) → (⟨S3300000, .i32⟩ : BufTy).Contents (Elt F) → (⟨S3300000, .i32⟩ : BufTy).Contents (Elt F)),
    ternary main_v70 main_v72 main_v1 main_v73 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v73 main_v74 (broadcastInDim S3300000x1 ![0] bcast_S3300000_S3300000x1_0 : (⟨S3300000, .i32⟩ : BufTy).Contents (Elt F) → (⟨S3300000x1, .i32⟩ : BufTy).Contents (Elt F)),
    binary main_v68 main_v74 main_v75 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v67 main_v76 (broadcastInDim S3300000x1 ![0] bcast_S3300000_S3300000x1_0 : (⟨S3300000, .f32⟩ : BufTy).Contents (Elt F) → (⟨S3300000x1, .f32⟩ : BufTy).Contents (Elt F)),
    unary main_v76 main_v77 (broadcastInDim S3300000x40 ![0, 1] bcast_S3300000x1_S3300000x40_0_1 : (⟨S3300000x1, .f32⟩ : BufTy).Contents (Elt F) → (⟨S3300000x40, .f32⟩ : BufTy).Contents (Elt F)),
    binary main_v75 main_v77 main_v78 (mulf : (⟨S3300000x40, .f32⟩ : BufTy).Contents (Elt F) → (⟨S3300000x40, .f32⟩ : BufTy).Contents (Elt F) → (⟨S3300000x40, .f32⟩ : BufTy).Contents (Elt F)),
    nullary main_cst_17 (constant S_ .f32 0x00000000#32),
    unary main_cst_17 main_v79 (broadcastInDim S100000x40 ![] bcast_S_S100000x40 : (⟨S_, .f32⟩ : BufTy).Contents (Elt F) → (⟨S100000x40, .f32⟩ : BufTy).Contents (Elt F)),
    unary main_v3 main_v80 (broadcastInDim S3300000x1 ![0] bcast_S3300000_S3300000x1_0 : (⟨S3300000, .i32⟩ : BufTy).Contents (Elt F) → (⟨S3300000x1, .i32⟩ : BufTy).Contents (Elt F)),
    ternary main_v79 main_v80 main_v78 main_v81 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]
/-- Operations 109 … 111 of @main. -/
abbrev refOps_h1 : List (HloOp τ sig (Elt F)) :=
  [ unary main_arg6 main_v82 (broadcastInDim S1x40 ![1] bcast_S40_S1x40_1 : (⟨S40, .f32⟩ : BufTy).Contents (Elt F) → (⟨S1x40, .f32⟩ : BufTy).Contents (Elt F)),
    unary main_v82 main_v83 (broadcastInDim S100000x40 ![0, 1] bcast_S1x40_S100000x40_0_1 : (⟨S1x40, .f32⟩ : BufTy).Contents (Elt F) → (⟨S100000x40, .f32⟩ : BufTy).Contents (Elt F)),
    binary main_v81 main_v83 main_v84 (addf : (⟨S100000x40, .f32⟩ : BufTy).Contents (Elt F) → (⟨S100000x40, .f32⟩ : BufTy).Contents (Elt F) → (⟨S100000x40, .f32⟩ : BufTy).Contents (Elt F)) ]
/-- Operations 112 … 113 of @main. -/
abbrev refOps_h2a1 : List (HloOp τ sig (Elt F)) :=
  [ TRef.nullary (TRef.of (T := ⟨S_, .f32⟩) main_call3_cst) (constant S_ .f32 0xFF800000#32),
    TRef.binary (TRef.of (T := ⟨S100000x40, .f32⟩) main_v84) (TRef.of (T := ⟨S_, .f32⟩) main_call3_cst) (TRef.of (T := ⟨S100000, .f32⟩) main_call3_v0) (fun x v => Host.reduce FloatOps.maximumf x v reducesTo_S100000x40_S100000_d1 h_S_) ]
/-- Operations 114 … 118 of @main. -/
abbrev refOps_h2a2 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1) ]
/-- Operations 119 … 122 of @main. -/
abbrev refOps_h2b : List (HloOp τ sig (Elt F)) :=
  [ TRef.binary (TRef.of (T := ⟨S100000x40, .f32⟩) main_v84) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]
/-- Operations 123 … 126 of @main. -/
abbrev refOps_h2c : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v85) subf ]

set_option maxRecDepth 65536 in
/-- The list of @main's operations is the fourteen stretches in order. -/
theorem ops_split : (ops (F := F)) = refOps_a1 ++ (refOps_a2 ++ (refOps_b ++ (refOps_c ++ (refOps_d ++ (refOps_e1 ++ (refOps_e2 ++ (refOps_f ++ (refOps_g ++ (refOps_h1 ++ (refOps_h2a1 ++ (refOps_h2a2 ++ (refOps_h2b ++ (refOps_h2c))))))))))))) := rfl
end Lists

end Cert.ReferenceIdeal.RefFold

end
-- ==== Proof.RefFoldStages.lean ====
/-
  Each of the fourteen stretches of the reference's @main computes, from the buffers it reads, the stage that Read's
  `val_` definitions name: the stretch's fold at its result buffer, read one operation at a time, is that stage's
  term of the values going in.  The base contents are a variable, so a stretch is read on its own.
-/
import proofs.«140395_j18399639896776_2_alg».proof.Proof.RefFoldLists

set_option maxRecDepth 16384
set_option Elab.async false

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-! ## Each stretch, from any contents -/

section Stretches
variable (V : Valuation τ sig (Elt Ideal))
variable (x0 : (⟨S100000x512, .f32⟩ : BufTy).Contents (Elt Ideal)) (x1 : (⟨S2x3300000, .i32⟩ : BufTy).Contents (Elt Ideal)) (x2 : (⟨S3300000, .f32⟩ : BufTy).Contents (Elt Ideal)) (x3 : (⟨S512x16, .f32⟩ : BufTy).Contents (Elt Ideal))
  (x4 : (⟨S16, .f32⟩ : BufTy).Contents (Elt Ideal)) (x5 : (⟨S16x40, .f32⟩ : BufTy).Contents (Elt Ideal)) (x6 : (⟨S40, .f32⟩ : BufTy).Contents (Elt Ideal))

set_option maxHeartbeats 2000000 in
/-- The source column of the edge list. -/
theorem ra_v1 (h0 : V (Proc.devRef .tc main_arg1) = x1) :
    StableHlo.after (refOps_a1 (F := Ideal)) V (Proc.devRef .tc main_v1) = val_main_v1 (F := Ideal) x1 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0]
  rfl

set_option maxHeartbeats 2000000 in
/-- The target column of the edge list. -/
theorem ra_v3 (h0 : V (Proc.devRef .tc main_arg1) = x1) :
    StableHlo.after (refOps_a1 (F := Ideal)) V (Proc.devRef .tc main_v3) = val_main_v3 (F := Ideal) x1 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0]
  rfl

set_option maxHeartbeats 2000000 in
/-- Which nodes have positive weighted degree. -/
theorem ra_v8 (h0 : V (Proc.devRef .tc main_arg1) = x1) (h1 : V (Proc.devRef .tc main_arg2) = x2) :
    StableHlo.after (refOps_a1 (F := Ideal)) V (Proc.devRef .tc main_v8) = val_main_v8 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The inverse square roots of the weighted degrees. -/
theorem ra_v9 (h0 : V (Proc.devRef .tc main_arg1) = x1) (h1 : V (Proc.devRef .tc main_arg2) = x2) :
    StableHlo.after (refOps_a1 (F := Ideal)) V (Proc.devRef .tc main_v9) = val_main_v9 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The zero the degree-less nodes get. -/
theorem ra_cst_1  :
    StableHlo.after (refOps_a1 (F := Ideal)) V (Proc.devRef .tc main_cst_1) = val_main_cst_1 (F := Ideal) := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rfl

set_option maxHeartbeats 2000000 in
/-- The inverse square roots where the degree is positive, zero elsewhere. -/
theorem ra_v10 (h0 : V (Proc.devRef .tc main_v8) = val_main_v8 (F := Ideal) x1 x2) (h1 : V (Proc.devRef .tc main_v9) = val_main_v9 (F := Ideal) x1 x2) (h2 : V (Proc.devRef .tc main_cst_1) = val_main_cst_1 (F := Ideal)) :
    StableHlo.after (refOps_a2 (F := Ideal)) V (Proc.devRef .tc main_v10) = val_main_v10 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1, h2]
  rfl

set_option maxHeartbeats 2000000 in
/-- The edge normalisation. -/
theorem rb_v26 (h0 : V (Proc.devRef .tc main_v1) = val_main_v1 (F := Ideal) x1) (h1 : V (Proc.devRef .tc main_v3) = val_main_v3 (F := Ideal) x1) (h2 : V (Proc.devRef .tc main_v10) = val_main_v10 (F := Ideal) x1 x2) (h3 : V (Proc.devRef .tc main_arg2) = x2) :
    StableHlo.after (refOps_b (F := Ideal)) V (Proc.devRef .tc main_v26) = val_main_v26 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1, h2, h3]
  rfl

set_option maxHeartbeats 2000000 in
/-- The first dense product and its aggregation. -/
theorem rc_v40 (h0 : V (Proc.devRef .tc main_arg0) = x0) (h1 : V (Proc.devRef .tc main_arg3) = x3) (h2 : V (Proc.devRef .tc main_v1) = val_main_v1 (F := Ideal) x1) (h3 : V (Proc.devRef .tc main_v3) = val_main_v3 (F := Ideal) x1) (h4 : V (Proc.devRef .tc main_v26) = val_main_v26 (F := Ideal) x1 x2) :
    StableHlo.after (refOps_c (F := Ideal)) V (Proc.devRef .tc main_v40) = val_main_v40 (F := Ideal) x0 x1 x2 x3 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1, h2, h3, h4]
  rfl

set_option maxHeartbeats 2000000 in
/-- Bias and rectifier. -/
theorem rd_v44 (h0 : V (Proc.devRef .tc main_v40) = val_main_v40 (F := Ideal) x0 x1 x2 x3) (h1 : V (Proc.devRef .tc main_arg4) = x4) :
    StableHlo.after (refOps_d (F := Ideal)) V (Proc.devRef .tc main_v44) = val_main_v44 (F := Ideal) x0 x1 x2 x3 x4 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- Which nodes have positive weighted degree, again. -/
theorem re_v49 (h0 : V (Proc.devRef .tc main_v3) = val_main_v3 (F := Ideal) x1) (h1 : V (Proc.devRef .tc main_arg2) = x2) :
    StableHlo.after (refOps_e1 (F := Ideal)) V (Proc.devRef .tc main_v49) = val_main_v49 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The inverse square roots of the weighted degrees, again. -/
theorem re_v50 (h0 : V (Proc.devRef .tc main_v3) = val_main_v3 (F := Ideal) x1) (h1 : V (Proc.devRef .tc main_arg2) = x2) :
    StableHlo.after (refOps_e1 (F := Ideal)) V (Proc.devRef .tc main_v50) = val_main_v50 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The zero the degree-less nodes get, again. -/
theorem re_cst_10  :
    StableHlo.after (refOps_e1 (F := Ideal)) V (Proc.devRef .tc main_cst_10) = val_main_cst_10 (F := Ideal) := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rfl

set_option maxHeartbeats 2000000 in
/-- The inverse square roots where the degree is positive, again. -/
theorem re_v51 (h0 : V (Proc.devRef .tc main_v49) = val_main_v49 (F := Ideal) x1 x2) (h1 : V (Proc.devRef .tc main_v50) = val_main_v50 (F := Ideal) x1 x2) (h2 : V (Proc.devRef .tc main_cst_10) = val_main_cst_10 (F := Ideal)) :
    StableHlo.after (refOps_e2 (F := Ideal)) V (Proc.devRef .tc main_v51) = val_main_v51 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1, h2]
  rfl

set_option maxHeartbeats 2000000 in
/-- The edge normalisation again. -/
theorem rf_v67 (h0 : V (Proc.devRef .tc main_v1) = val_main_v1 (F := Ideal) x1) (h1 : V (Proc.devRef .tc main_v3) = val_main_v3 (F := Ideal) x1) (h2 : V (Proc.devRef .tc main_v51) = val_main_v51 (F := Ideal) x1 x2) (h3 : V (Proc.devRef .tc main_arg2) = x2) :
    StableHlo.after (refOps_f (F := Ideal)) V (Proc.devRef .tc main_v67) = val_main_v67 (F := Ideal) x1 x2 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1, h2, h3]
  rfl

set_option maxHeartbeats 2000000 in
/-- The second dense product and its aggregation. -/
theorem rg_v81 (h0 : V (Proc.devRef .tc main_v44) = val_main_v44 (F := Ideal) x0 x1 x2 x3 x4) (h1 : V (Proc.devRef .tc main_arg5) = x5) (h2 : V (Proc.devRef .tc main_v1) = val_main_v1 (F := Ideal) x1) (h3 : V (Proc.devRef .tc main_v3) = val_main_v3 (F := Ideal) x1) (h4 : V (Proc.devRef .tc main_v67) = val_main_v67 (F := Ideal) x1 x2) :
    StableHlo.after (refOps_g (F := Ideal)) V (Proc.devRef .tc main_v81) = val_main_v81 (F := Ideal) x0 x1 x2 x3 x4 x5 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1, h2, h3, h4]
  rfl

set_option maxHeartbeats 2000000 in
/-- The biased logits. -/
theorem rh_v84 (h0 : V (Proc.devRef .tc main_v81) = val_main_v81 (F := Ideal) x0 x1 x2 x3 x4 x5) (h1 : V (Proc.devRef .tc main_arg6) = x6) :
    StableHlo.after (refOps_h1 (F := Ideal)) V (Proc.devRef .tc main_v84) = val_main_v84 (F := Ideal) x0 x1 x2 x3 x4 x5 x6 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The row maxima of the biased logits, from −∞. -/
theorem rh_v0 (h0 : V (Proc.devRef .tc main_v84) = val_main_v84 (F := Ideal) x0 x1 x2 x3 x4 x5 x6) :
    StableHlo.after (refOps_h2a1 (F := Ideal)) V (Proc.devRef .tc main_call3_v0) = val_main_call3_v0 (F := Ideal) x0 x1 x2 x3 x4 x5 x6 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0]
  rfl

set_option maxHeartbeats 2000000 in
/-- The row maxima, once more against −∞, repeated along the rows. -/
theorem rh_v4 (h0 : V (Proc.devRef .tc main_call3_v0) = val_main_call3_v0 (F := Ideal) x0 x1 x2 x3 x4 x5 x6) :
    StableHlo.after (refOps_h2a2 (F := Ideal)) V (Proc.devRef .tc main_call3_v4) = val_main_call3_v4 (F := Ideal) x0 x1 x2 x3 x4 x5 x6 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0]
  rfl

set_option maxHeartbeats 2000000 in
/-- The biased logits with each row's maximum subtracted. -/
theorem rh_v5 (h0 : V (Proc.devRef .tc main_v84) = val_main_v84 (F := Ideal) x0 x1 x2 x3 x4 x5 x6) (h1 : V (Proc.devRef .tc main_call3_v4) = val_main_call3_v4 (F := Ideal) x0 x1 x2 x3 x4 x5 x6) :
    StableHlo.after (refOps_h2b (F := Ideal)) V (Proc.devRef .tc main_call3_v5) = val_main_call3_v5 (F := Ideal) x0 x1 x2 x3 x4 x5 x6 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The row sums of the exponentials of the shifted logits. -/
theorem rh_v7 (h0 : V (Proc.devRef .tc main_v84) = val_main_v84 (F := Ideal) x0 x1 x2 x3 x4 x5 x6) (h1 : V (Proc.devRef .tc main_call3_v4) = val_main_call3_v4 (F := Ideal) x0 x1 x2 x3 x4 x5 x6) :
    StableHlo.after (refOps_h2b (F := Ideal)) V (Proc.devRef .tc main_call3_v7) = val_main_call3_v7 (F := Ideal) x0 x1 x2 x3 x4 x5 x6 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

set_option maxHeartbeats 2000000 in
/-- The shifted logits minus the logarithm of their row's sum of exponentials. -/
theorem rh_v85 (h0 : V (Proc.devRef .tc main_call3_v5) = val_main_call3_v5 (F := Ideal) x0 x1 x2 x3 x4 x5 x6) (h1 : V (Proc.devRef .tc main_call3_v7) = val_main_call3_v7 (F := Ideal) x0 x1 x2 x3 x4 x5 x6) :
    StableHlo.after (refOps_h2c (F := Ideal)) V (Proc.devRef .tc main_v85) = val_main_v85 (F := Ideal) x0 x1 x2 x3 x4 x5 x6 := by
  after_results_simp
  try simp only [toBuf_main_cst_1, ofBuf_main_cst_1, toBuf_main_call0_v0, ofBuf_main_call0_v0, toBuf_main_call0_v1, ofBuf_main_call0_v1, toBuf_main_v8, ofBuf_main_v8, toBuf_main_v9, ofBuf_main_v9, toBuf_main_v10, ofBuf_main_v10, toBuf_main_call1_cst, ofBuf_main_call1_cst, toBuf_main_call1_v0, ofBuf_main_call1_v0, toBuf_main_v43, ofBuf_main_v43, toBuf_main_v44, ofBuf_main_v44, toBuf_main_cst_10, ofBuf_main_cst_10, toBuf_main_call2_v0, ofBuf_main_call2_v0, toBuf_main_call2_v1, ofBuf_main_call2_v1, toBuf_main_v49, ofBuf_main_v49, toBuf_main_v50, ofBuf_main_v50, toBuf_main_v51, ofBuf_main_v51, toBuf_main_call3_cst, ofBuf_main_call3_cst, toBuf_main_v84, ofBuf_main_v84, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v85, ofBuf_main_v85]
  rw [h0, h1]
  rfl

end Stretches

end Cert.ReferenceIdeal.RefFold

end
-- ==== Proof.RefFold.lean ====
/-
  The reference's result, read back to its last stage of the arguments.

  After the run the result buffer holds the fold of @main's 126 operations at that buffer.  The list is the fourteen
  stretches in order, so the fold is the fourteen stretches' folds one after the other; at each of the fourteen boundaries
  the buffers the later stretches read hold the stages of the arguments (a stretch computes its stage from the stages
  before; a buffer no operation of a stretch writes passes it unchanged).
-/
import proofs.«140395_j18399639896776_2_alg».proof.Proof.RefFoldStages

set_option maxRecDepth 16384

noncomputable section

namespace Cert.ReferenceIdeal.RefFold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- A buffer no operation of a stretch writes keeps its contents through the stretch. -/
macro "stretch_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The fold through two lists run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-! ## The fourteen boundaries -/

section Boundaries
variable (W : Valuation τ sig (Elt Ideal))

/-- The contents after stretch a1. -/
abbrev U1 : Valuation τ sig (Elt Ideal) := StableHlo.after (refOps_a1 (F := Ideal)) W
/-- The contents after stretch a2. -/
abbrev U2 : Valuation τ sig (Elt Ideal) := StableHlo.after (refOps_a2 (F := Ideal)) (U1 W)
/-- The contents after stretch b. -/
abbrev U3 : Valuation τ sig (Elt Ideal) := StableHlo.after (refOps_b (F := Ideal)) (U2 W)
/-- The contents after stretch c. -/
abbrev U4 : Valuation τ sig (Elt Ideal) := StableHlo.after (refOps_c (F := Ideal)) (U3 W)
/-- The contents after stretch d. -/
abbrev U5 : Valuation τ sig (Elt Ideal) := StableHlo.after (refOps_d (F := Ideal)) (U4 W)
/-- The contents after stretch e1. -/
abbrev U6 : Valuation τ sig (Elt Ideal) := StableHlo.after (refOps_e1 (F := Ideal)) (U5 W)
/-- The contents after stretch e2. -/
abbrev U7 : Valuation τ sig (Elt Ideal) := StableHlo.after (refOps_e2 (F := Ideal)) (U6 W)
/-- The contents after stretch f. -/
abbrev U8 : Valuation τ sig (Elt Ideal) := StableHlo.after (refOps_f (F := Ideal)) (U7 W)
/-- The contents after stretch g. -/
abbrev U9 : Valuation τ sig (Elt Ideal) := StableHlo.after (refOps_g (F := Ideal)) (U8 W)
/-- The contents after stretch h1. -/
abbrev U10 : Valuation τ sig (Elt Ideal) := StableHlo.after (refOps_h1 (F := Ideal)) (U9 W)
/-- The contents after stretch h2a1. -/
abbrev U11 : Valuation τ sig (Elt Ideal) := StableHlo.after (refOps_h2a1 (F := Ideal)) (U10 W)
/-- The contents after stretch h2a2. -/
abbrev U12 : Valuation τ sig (Elt Ideal) := StableHlo.after (refOps_h2a2 (F := Ideal)) (U11 W)
/-- The contents after stretch h2b. -/
abbrev U13 : Valuation τ sig (Elt Ideal) := StableHlo.after (refOps_h2b (F := Ideal)) (U12 W)
/-- The contents after stretch h2c. -/
abbrev U14 : Valuation τ sig (Elt Ideal) := StableHlo.after (refOps_h2c (F := Ideal)) (U13 W)

/-! ### After stretch a1 -/
theorem u1_v1 : U1 W (Proc.devRef .tc main_v1) = val_main_v1 (F := Ideal) (W (Proc.devRef .tc main_arg1)) :=
  ra_v1 W (W (Proc.devRef .tc main_arg1)) rfl
theorem u1_v3 : U1 W (Proc.devRef .tc main_v3) = val_main_v3 (F := Ideal) (W (Proc.devRef .tc main_arg1)) :=
  ra_v3 W (W (Proc.devRef .tc main_arg1)) rfl
theorem u1_v8 : U1 W (Proc.devRef .tc main_v8) = val_main_v8 (F := Ideal) (W (Proc.devRef .tc main_arg1)) (W (Proc.devRef .tc main_arg2)) :=
  ra_v8 W (W (Proc.devRef .tc main_arg1)) (W (Proc.devRef .tc main_arg2)) rfl rfl
theorem u1_v9 : U1 W (Proc.devRef .tc main_v9) = val_main_v9 (F := Ideal) (W (Proc.devRef .tc main_arg1)) (W (Proc.devRef .tc main_arg2)) :=
  ra_v9 W (W (Proc.devRef .tc main_arg1)) (W (Proc.devRef .tc main_arg2)) rfl rfl
theorem u1_cst_1 : U1 W (Proc.devRef .tc main_cst_1) = val_main_cst_1 (F := Ideal) :=
  ra_cst_1 W
theorem u1_arg0 : U1 W (Proc.devRef .tc main_arg0) = (W (Proc.devRef .tc main_arg0)) :=
  by stretch_keeps refOps_a1
theorem u1_arg2 : U1 W (Proc.devRef .tc main_arg2) = (W (Proc.devRef .tc main_arg2)) :=
  by stretch_keeps refOps_a1
theorem u1_arg3 : U1 W (Proc.devRef .tc main_arg3) = (W (Proc.devRef .tc main_arg3)) :=
  by stretch_keeps refOps_a1
theorem u1_arg4 : U1 W (Proc.devRef .tc main_arg4) = (W (Proc.devRef .tc main_arg4)) :=
  by stretch_keeps refOps_a1
theorem u1_arg5 : U1 W (Proc.devRef .tc main_arg5) = (W (Proc.devRef .tc main_arg5)) :=
  by stretch_keeps refOps_a1
theorem u1_arg6 : U1 W (Proc.devRef .tc main_arg6) = (W (Proc.devRef .tc main_arg6)) :=
  by stretch_keeps refOps_a1

/-! ### After stretch a2 -/
theorem u2_v10 : U2 W (Proc.devRef .tc main_v10) = val_main_v10 (F := Ideal) (W (Proc.devRef .tc main_arg1)) (W (Proc.devRef .tc main_arg2)) :=
  ra_v10 (U1 W) (W (Proc.devRef .tc main_arg1)) (W (Proc.devRef .tc main_arg2)) (u1_v8 W) (u1_v9 W) (u1_cst_1 W)
theorem u2_v1 : U2 W (Proc.devRef .tc main_v1) = val_main_v1 (F := Ideal) (W (Proc.devRef .tc main_arg1)) :=
  (show U2 W (Proc.devRef .tc main_v1) = (U1 W) (Proc.devRef .tc main_v1) by stretch_keeps refOps_a2).trans (u1_v1 W)
theorem u2_v3 : U2 W (Proc.devRef .tc main_v3) = val_main_v3 (F := Ideal) (W (Proc.devRef .tc main_arg1)) :=
  (show U2 W (Proc.devRef .tc main_v3) = (U1 W) (Proc.devRef .tc main_v3) by stretch_keeps refOps_a2).trans (u1_v3 W)
theorem u2_arg0 : U2 W (Proc.devRef .tc main_arg0) = (W (Proc.devRef .tc main_arg0)) :=
  (show U2 W (Proc.devRef .tc main_arg0) = (U1 W) (Proc.devRef .tc main_arg0) by stretch_keeps refOps_a2).trans (u1_arg0 W)
theorem u2_arg2 : U2 W (Proc.devRef .tc main_arg2) = (W (Proc.devRef .tc main_arg2)) :=
  (show U2 W (Proc.devRef .tc main_arg2) = (U1 W) (Proc.devRef .tc main_arg2) by stretch_keeps refOps_a2).trans (u1_arg2 W)
theorem u2_arg3 : U2 W (Proc.devRef .tc main_arg3) = (W (Proc.devRef .tc main_arg3)) :=
  (show U2 W (Proc.devRef .tc main_arg3) = (U1 W) (Proc.devRef .tc main_arg3) by stretch_keeps refOps_a2).trans (u1_arg3 W)
theorem u2_arg4 : U2 W (Proc.devRef .tc main_arg4) = (W (Proc.devRef .tc main_arg4)) :=
  (show U2 W (Proc.devRef .tc main_arg4) = (U1 W) (Proc.devRef .tc main_arg4) by stretch_keeps refOps_a2).trans (u1_arg4 W)
theorem u2_arg5 : U2 W (Proc.devRef .tc main_arg5) = (W (Proc.devRef .tc main_arg5)) :=
  (show U2 W (Proc.devRef .tc main_arg5) = (U1 W) (Proc.devRef .tc main_arg5) by stretch_keeps refOps_a2).trans (u1_arg5 W)
theorem u2_arg6 : U2 W (Proc.devRef .tc main_arg6) = (W (Proc.devRef .tc main_arg6)) :=
  (show U2 W (Proc.devRef .tc main_arg6) = (U1 W) (Proc.devRef .tc main_arg6) by stretch_keeps refOps_a2).trans (u1_arg6 W)

/-! ### After stretch b -/
theorem u3_v26 : U3 W (Proc.devRef .tc main_v26) = val_main_v26 (F := Ideal) (W (Proc.devRef .tc main_arg1)) (W (Proc.devRef .tc main_arg2)) :=
  rb_v26 (U2 W) (W (Proc.devRef .tc main_arg1)) (W (Proc.devRef .tc main_arg2)) (u2_v1 W) (u2_v3 W) (u2_v10 W) (u2_arg2 W)
theorem u3_v1 : U3 W (Proc.devRef .tc main_v1) = val_main_v1 (F := Ideal) (W (Proc.devRef .tc main_arg1)) :=
  (show U3 W (Proc.devRef .tc main_v1) = (U2 W) (Proc.devRef .tc main_v1) by stretch_keeps refOps_b).trans (u2_v1 W)
theorem u3_v3 : U3 W (Proc.devRef .tc main_v3) = val_main_v3 (F := Ideal) (W (Proc.devRef .tc main_arg1)) :=
  (show U3 W (Proc.devRef .tc main_v3) = (U2 W) (Proc.devRef .tc main_v3) by stretch_keeps refOps_b).trans (u2_v3 W)
theorem u3_arg0 : U3 W (Proc.devRef .tc main_arg0) = (W (Proc.devRef .tc main_arg0)) :=
  (show U3 W (Proc.devRef .tc main_arg0) = (U2 W) (Proc.devRef .tc main_arg0) by stretch_keeps refOps_b).trans (u2_arg0 W)
theorem u3_arg2 : U3 W (Proc.devRef .tc main_arg2) = (W (Proc.devRef .tc main_arg2)) :=
  (show U3 W (Proc.devRef .tc main_arg2) = (U2 W) (Proc.devRef .tc main_arg2) by stretch_keeps refOps_b).trans (u2_arg2 W)
theorem u3_arg3 : U3 W (Proc.devRef .tc main_arg3) = (W (Proc.devRef .tc main_arg3)) :=
  (show U3 W (Proc.devRef .tc main_arg3) = (U2 W) (Proc.devRef .tc main_arg3) by stretch_keeps refOps_b).trans (u2_arg3 W)
theorem u3_arg4 : U3 W (Proc.devRef .tc main_arg4) = (W (Proc.devRef .tc main_arg4)) :=
  (show U3 W (Proc.devRef .tc main_arg4) = (U2 W) (Proc.devRef .tc main_arg4) by stretch_keeps refOps_b).trans (u2_arg4 W)
theorem u3_arg5 : U3 W (Proc.devRef .tc main_arg5) = (W (Proc.devRef .tc main_arg5)) :=
  (show U3 W (Proc.devRef .tc main_arg5) = (U2 W) (Proc.devRef .tc main_arg5) by stretch_keeps refOps_b).trans (u2_arg5 W)
theorem u3_arg6 : U3 W (Proc.devRef .tc main_arg6) = (W (Proc.devRef .tc main_arg6)) :=
  (show U3 W (Proc.devRef .tc main_arg6) = (U2 W) (Proc.devRef .tc main_arg6) by stretch_keeps refOps_b).trans (u2_arg6 W)

/-! ### After stretch c -/
theorem u4_v40 : U4 W (Proc.devRef .tc main_v40) = val_main_v40 (F := Ideal) (W (Proc.devRef .tc main_arg0)) (W (Proc.devRef .tc main_arg1)) (W (Proc.devRef .tc main_arg2)) (W (Proc.devRef .tc main_arg3)) :=
  rc_v40 (U3 W) (W (Proc.devRef .tc main_arg0)) (W (Proc.devRef .tc main_arg1)) (W (Proc.devRef .tc main_arg2)) (W (Proc.devRef .tc main_arg3)) (u3_arg0 W) (u3_arg3 W) (u3_v1 W) (u3_v3 W) (u3_v26 W)
theorem u4_v1 : U4 W (Proc.devRef .tc main_v1) = val_main_v1 (F := Ideal) (W (Proc.devRef .tc main_arg1)) :=
  (show U4 W (Proc.devRef .tc main_v1) = (U3 W) (Proc.devRef .tc main_v1) by stretch_keeps refOps_c).trans (u3_v1 W)
theorem u4_v3 : U4 W (Proc.devRef .tc main_v3) = val_main_v3 (F := Ideal) (W (Proc.devRef .tc main_arg1)) :=
  (show U4 W (Proc.devRef .tc main_v3) = (U3 W) (Proc.devRef .tc main_v3) by stretch_keeps refOps_c).trans (u3_v3 W)
theorem u4_arg2 : U4 W (Proc.devRef .tc main_arg2) = (W (Proc.devRef .tc main_arg2)) :=
  (show U4 W (Proc.devRef .tc main_arg2) = (U3 W) (Proc.devRef .tc main_arg2) by stretch_keeps refOps_c).trans (u3_arg2 W)
theorem u4_arg4 : U4 W (Proc.devRef .tc main_arg4) = (W (Proc.devRef .tc main_arg4)) :=
  (show U4 W (Proc.devRef .tc main_arg4) = (U3 W) (Proc.devRef .tc main_arg4) by stretch_keeps refOps_c).trans (u3_arg4 W)
theorem u4_arg5 : U4 W (Proc.devRef .tc main_arg5) = (W (Proc.devRef .tc main_arg5)) :=
  (show U4 W (Proc.devRef .tc main_arg5) = (U3 W) (Proc.devRef .tc main_arg5) by stretch_keeps refOps_c).trans (u3_arg5 W)
theorem u4_arg6 : U4 W (Proc.devRef .tc main_arg6) = (W (Proc.devRef .tc main_arg6)) :=
  (show U4 W (Proc.devRef .tc main_arg6) = (U3 W) (Proc.devRef .tc main_arg6) by stretch_keeps refOps_c).trans (u3_arg6 W)

/-! ### After stretch d -/
theorem u5_v44 : U5 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) :=
  rd_v44 (U4 W) (W (Proc.devRef .tc main_arg0)) (W (Proc.devRef .tc main_arg1)) (W (Proc.devRef .tc main_arg2)) (W (Proc.devRef .tc main_arg3)) (W (Proc.devRef .tc main_arg4)) (u4_v40 W) (u4_arg4 W)
theorem u5_v1 : U5 W (Proc.devRef .tc main_v1) = val_main_v1 (F := Ideal) (W (Proc.devRef .tc main_arg1)) :=
  (show U5 W (Proc.devRef .tc main_v1) = (U4 W) (Proc.devRef .tc main_v1) by stretch_keeps refOps_d).trans (u4_v1 W)
theorem u5_v3 : U5 W (Proc.devRef .tc main_v3) = val_main_v3 (F := Ideal) (W (Proc.devRef .tc main_arg1)) :=
  (show U5 W (Proc.devRef .tc main_v3) = (U4 W) (Proc.devRef .tc main_v3) by stretch_keeps refOps_d).trans (u4_v3 W)
theorem u5_arg2 : U5 W (Proc.devRef .tc main_arg2) = (W (Proc.devRef .tc main_arg2)) :=
  (show U5 W (Proc.devRef .tc main_arg2) = (U4 W) (Proc.devRef .tc main_arg2) by stretch_keeps refOps_d).trans (u4_arg2 W)
theorem u5_arg5 : U5 W (Proc.devRef .tc main_arg5) = (W (Proc.devRef .tc main_arg5)) :=
  (show U5 W (Proc.devRef .tc main_arg5) = (U4 W) (Proc.devRef .tc main_arg5) by stretch_keeps refOps_d).trans (u4_arg5 W)
theorem u5_arg6 : U5 W (Proc.devRef .tc main_arg6) = (W (Proc.devRef .tc main_arg6)) :=
  (show U5 W (Proc.devRef .tc main_arg6) = (U4 W) (Proc.devRef .tc main_arg6) by stretch_keeps refOps_d).trans (u4_arg6 W)

/-! ### After stretch e1 -/
theorem u6_v49 : U6 W (Proc.devRef .tc main_v49) = val_main_v49 (F := Ideal) (W (Proc.devRef .tc main_arg1)) (W (Proc.devRef .tc main_arg2)) :=
  re_v49 (U5 W) (W (Proc.devRef .tc main_arg1)) (W (Proc.devRef .tc main_arg2)) (u5_v3 W) (u5_arg2 W)
theorem u6_v50 : U6 W (Proc.devRef .tc main_v50) = val_main_v50 (F := Ideal) (W (Proc.devRef .tc main_arg1)) (W (Proc.devRef .tc main_arg2)) :=
  re_v50 (U5 W) (W (Proc.devRef .tc main_arg1)) (W (Proc.devRef .tc main_arg2)) (u5_v3 W) (u5_arg2 W)
theorem u6_cst_10 : U6 W (Proc.devRef .tc main_cst_10) = val_main_cst_10 (F := Ideal) :=
  re_cst_10 (U5 W)
theorem u6_v1 : U6 W (Proc.devRef .tc main_v1) = val_main_v1 (F := Ideal) (W (Proc.devRef .tc main_arg1)) :=
  (show U6 W (Proc.devRef .tc main_v1) = (U5 W) (Proc.devRef .tc main_v1) by stretch_keeps refOps_e1).trans (u5_v1 W)
theorem u6_v3 : U6 W (Proc.devRef .tc main_v3) = val_main_v3 (F := Ideal) (W (Proc.devRef .tc main_arg1)) :=
  (show U6 W (Proc.devRef .tc main_v3) = (U5 W) (Proc.devRef .tc main_v3) by stretch_keeps refOps_e1).trans (u5_v3 W)
theorem u6_v44 : U6 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) :=
  (show U6 W (Proc.devRef .tc main_v44) = (U5 W) (Proc.devRef .tc main_v44) by stretch_keeps refOps_e1).trans (u5_v44 W)
theorem u6_arg2 : U6 W (Proc.devRef .tc main_arg2) = (W (Proc.devRef .tc main_arg2)) :=
  (show U6 W (Proc.devRef .tc main_arg2) = (U5 W) (Proc.devRef .tc main_arg2) by stretch_keeps refOps_e1).trans (u5_arg2 W)
theorem u6_arg5 : U6 W (Proc.devRef .tc main_arg5) = (W (Proc.devRef .tc main_arg5)) :=
  (show U6 W (Proc.devRef .tc main_arg5) = (U5 W) (Proc.devRef .tc main_arg5) by stretch_keeps refOps_e1).trans (u5_arg5 W)
theorem u6_arg6 : U6 W (Proc.devRef .tc main_arg6) = (W (Proc.devRef .tc main_arg6)) :=
  (show U6 W (Proc.devRef .tc main_arg6) = (U5 W) (Proc.devRef .tc main_arg6) by stretch_keeps refOps_e1).trans (u5_arg6 W)

/-! ### After stretch e2 -/
theorem u7_v51 : U7 W (Proc.devRef .tc main_v51) = val_main_v51 (F := Ideal) (W (Proc.devRef .tc main_arg1)) (W (Proc.devRef .tc main_arg2)) :=
  re_v51 (U6 W) (W (Proc.devRef .tc main_arg1)) (W (Proc.devRef .tc main_arg2)) (u6_v49 W) (u6_v50 W) (u6_cst_10 W)
theorem u7_v1 : U7 W (Proc.devRef .tc main_v1) = val_main_v1 (F := Ideal) (W (Proc.devRef .tc main_arg1)) :=
  (show U7 W (Proc.devRef .tc main_v1) = (U6 W) (Proc.devRef .tc main_v1) by stretch_keeps refOps_e2).trans (u6_v1 W)
theorem u7_v3 : U7 W (Proc.devRef .tc main_v3) = val_main_v3 (F := Ideal) (W (Proc.devRef .tc main_arg1)) :=
  (show U7 W (Proc.devRef .tc main_v3) = (U6 W) (Proc.devRef .tc main_v3) by stretch_keeps refOps_e2).trans (u6_v3 W)
theorem u7_v44 : U7 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) :=
  (show U7 W (Proc.devRef .tc main_v44) = (U6 W) (Proc.devRef .tc main_v44) by stretch_keeps refOps_e2).trans (u6_v44 W)
theorem u7_arg2 : U7 W (Proc.devRef .tc main_arg2) = (W (Proc.devRef .tc main_arg2)) :=
  (show U7 W (Proc.devRef .tc main_arg2) = (U6 W) (Proc.devRef .tc main_arg2) by stretch_keeps refOps_e2).trans (u6_arg2 W)
theorem u7_arg5 : U7 W (Proc.devRef .tc main_arg5) = (W (Proc.devRef .tc main_arg5)) :=
  (show U7 W (Proc.devRef .tc main_arg5) = (U6 W) (Proc.devRef .tc main_arg5) by stretch_keeps refOps_e2).trans (u6_arg5 W)
theorem u7_arg6 : U7 W (Proc.devRef .tc main_arg6) = (W (Proc.devRef .tc main_arg6)) :=
  (show U7 W (Proc.devRef .tc main_arg6) = (U6 W) (Proc.devRef .tc main_arg6) by stretch_keeps refOps_e2).trans (u6_arg6 W)

/-! ### After stretch f -/
theorem u8_v67 : U8 W (Proc.devRef .tc main_v67) = val_main_v67 (F := Ideal) (W (Proc.devRef .tc main_arg1)) (W (Proc.devRef .tc main_arg2)) :=
  rf_v67 (U7 W) (W (Proc.devRef .tc main_arg1)) (W (Proc.devRef .tc main_arg2)) (u7_v1 W) (u7_v3 W) (u7_v51 W) (u7_arg2 W)
theorem u8_v1 : U8 W (Proc.devRef .tc main_v1) = val_main_v1 (F := Ideal) (W (Proc.devRef .tc main_arg1)) :=
  (show U8 W (Proc.devRef .tc main_v1) = (U7 W) (Proc.devRef .tc main_v1) by stretch_keeps refOps_f).trans (u7_v1 W)
theorem u8_v3 : U8 W (Proc.devRef .tc main_v3) = val_main_v3 (F := Ideal) (W (Proc.devRef .tc main_arg1)) :=
  (show U8 W (Proc.devRef .tc main_v3) = (U7 W) (Proc.devRef .tc main_v3) by stretch_keeps refOps_f).trans (u7_v3 W)
theorem u8_v44 : U8 W (Proc.devRef .tc main_v44) = val_main_v44 (F := Ideal) (W (Proc.devRef .tc main_arg0)) (W (Proc.devRef .tc main_arg1)) (W (Proc.devRef .tc main_arg2)) (W (Proc.devRef .tc main_arg3)) (W (Proc.devRef .tc main_arg4)) :=
  (show U8 W (Proc.devRef .tc main_v44) = (U7 W) (Proc.devRef .tc main_v44) by stretch_keeps refOps_f).trans (u7_v44 W)
theorem u8_arg5 : U8 W (Proc.devRef .tc main_arg5) = (W (Proc.devRef .tc main_arg5)) :=
  (show U8 W (Proc.devRef .tc main_arg5) = (U7 W) (Proc.devRef .tc main_arg5) by stretch_keeps refOps_f).trans (u7_arg5 W)
theorem u8_arg6 : U8 W (Proc.devRef .tc main_arg6) = (W (Proc.devRef .tc main_arg6)) :=
  (show U8 W (Proc.devRef .tc main_arg6) = (U7 W) (Proc.devRef .tc main_arg6) by stretch_keeps refOps_f).trans (u7_arg6 W)

/-! ### After stretch g -/
theorem u9_v81 : U9 W (Proc.devRef .tc main_v81) = val_main_v81 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) :=
  rg_v81 (U8 W) (W (Proc.devRef .tc main_arg0)) (W (Proc.devRef .tc main_arg1)) (W (Proc.devRef .tc main_arg2)) (W (Proc.devRef .tc main_arg3)) (W (Proc.devRef .tc main_arg4)) (W (Proc.devRef .tc main_arg5)) (u8_v44 W) (u8_arg5 W) (u8_v1 W) (u8_v3 W) (u8_v67 W)
theorem u9_arg6 : U9 W (Proc.devRef .tc main_arg6) = (W (Proc.devRef .tc main_arg6)) :=
  (show U9 W (Proc.devRef .tc main_arg6) = (U8 W) (Proc.devRef .tc main_arg6) by stretch_keeps refOps_g).trans (u8_arg6 W)

/-! ### After stretch h1 -/
theorem u10_v84 : U10 W (Proc.devRef .tc main_v84) = val_main_v84 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  rh_v84 (U9 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (u9_v81 W) (u9_arg6 W)

/-! ### After stretch h2a1 -/
theorem u11_call3_v0 : U11 W (Proc.devRef .tc main_call3_v0) = val_main_call3_v0 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  rh_v0 (U10 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (u10_v84 W)
theorem u11_v84 : U11 W (Proc.devRef .tc main_v84) = val_main_v84 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (show U11 W (Proc.devRef .tc main_v84) = (U10 W) (Proc.devRef .tc main_v84) by stretch_keeps refOps_h2a1).trans (u10_v84 W)

/-! ### After stretch h2a2 -/
theorem u12_call3_v4 : U12 W (Proc.devRef .tc main_call3_v4) = val_main_call3_v4 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  rh_v4 (U11 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (u11_call3_v0 W)
theorem u12_v84 : U12 W (Proc.devRef .tc main_v84) = val_main_v84 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  (show U12 W (Proc.devRef .tc main_v84) = (U11 W) (Proc.devRef .tc main_v84) by stretch_keeps refOps_h2a2).trans (u11_v84 W)

/-! ### After stretch h2b -/
theorem u13_call3_v5 : U13 W (Proc.devRef .tc main_call3_v5) = val_main_call3_v5 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  rh_v5 (U12 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (u12_v84 W) (u12_call3_v4 W)
theorem u13_call3_v7 : U13 W (Proc.devRef .tc main_call3_v7) = val_main_call3_v7 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  rh_v7 (U12 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (u12_v84 W) (u12_call3_v4 W)

/-! ### After stretch h2c -/
theorem u14_v85 : U14 W (Proc.devRef .tc main_v85) = val_main_v85 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) :=
  rh_v85 (U13 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (u13_call3_v5 W) (u13_call3_v7 W)

/-- The reference's result buffer after the fold of all 126 operations holds the last stage of the arguments. -/
theorem fold_eq : StableHlo.after (ops (F := Ideal)) W (Proc.devRef .tc main_v85) = val_main_v85 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_split]
  simp only [after_append]
  exact u14_v85 W

end Boundaries

end Cert.ReferenceIdeal.RefFold

end
-- ==== Proof.lean ====
/-
  A two-layer graph convolution with a log-softmax head: the Pallas kernel's program against the plain jnp reference,
  on the extended reals.

  Both programs compute, from the node features x, the edge list, the edge weights and the two layers' weights and
  biases,
      out = log_softmax (A · (max (A · (x · W₁) + b₁, 0) · W₂) + b₂),
  where A aggregates, for every edge, the source node's row scaled by the edge normalisation d(src)^(-1/2) · w · d(dst)^(-1/2)
  into the target node's row (d the weighted in-degree, its inverse square root taken as zero where d is not
  positive).  The aggregation is the same host operations in both programs.  The kernel computes the two dense products, the
  bias-and-rectifier and the bias-and-log-softmax in four Pallas regions, block of rows by block of rows, and the edge
  normalisation once; the reference computes them with whole-array host operations and the edge normalisation twice.

  * Each Pallas region leaves in its output array ONE function of its two input arrays, entry by entry: a dense
    product is Σ_k x (p, k) · W (k, q) whichever way the rows are tiled (the rounding of the operands to a narrower
    float format is the identity on the extended reals); bias-and-rectifier is entrywise; the log-softmax of a row
    depends on that row only, and a block holds whole rows.
  * The reference's `dot_general`, bias / maximum, and `log_softmax` operations are the same functions.
  * So boundary by boundary through @main the kernel's buffers hold what the reference's stages hold, and the two
    results are the same term of the arguments.  No property of the inputs is used: the sums and maxima are the
    same sums and maxima on both sides, so the finiteness precondition is never opened.

  The three frames are the generated frame certificates (the reference's from its run); the ideal pass rewrote nothing,
  so `preserves` is trivial.
-/
import proofs.«140395_j18399639896776_2_alg».proof.Defs
import proofs.«140395_j18399639896776_2_alg».proof.Proof.Gen.Kernel
import proofs.«140395_j18399639896776_2_alg».proof.Proof.Gen.Kernel.Frame
import proofs.«140395_j18399639896776_2_alg».proof.Proof.Gen.KernelIdeal
import proofs.«140395_j18399639896776_2_alg».proof.Proof.Gen.KernelIdeal.Frame
import proofs.«140395_j18399639896776_2_alg».proof.Proof.Gen.ReferenceIdeal
import proofs.«140395_j18399639896776_2_alg».proof.Proof.Gen.Pre_finite_inputs
import proofs.«140395_j18399639896776_2_alg».proof.Proof.KernelRun
import proofs.«140395_j18399639896776_2_alg».proof.Proof.KernelValue
import proofs.«140395_j18399639896776_2_alg».proof.Proof.RefFold
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel :=
  fun m ρ _ => Cert.Kernel.Gen.frame m ρ

/-- The idealized kernel runs and leaves its arguments as launched. -/
theorem frame_kernelIdeal : Cert.frame_KernelIdeal :=
  fun m ρ _ => Cert.KernelIdeal.Gen.frame m ρ

/-- The idealized reference runs and leaves its arguments as launched: its run with the result dropped. -/
theorem frame_referenceIdeal : Cert.frame_ReferenceIdeal :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs run and end with the same result array: the
    reference's last stage of the arguments. -/
theorem algebraic :
    Cert.algebraic_KernelIdeal_ReferenceIdeal := by
  intro m ρ m' ρ' _ hagree
  refine ⟨fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.w9_v56 m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.RefFold.fold_eq (fun b => m' ((c : Dev Cert.ReferenceIdeal.nD), b))).trans ?_
    show Cert.ReferenceIdeal.ReadP.val_main_v85 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
